-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x128 : Shape := ⟨3, ![4, 512, 128]⟩
abbrev S512x128 : Shape := ⟨2, ![512, 128]⟩
abbrev S_ : Shape := ⟨0, ![]⟩
abbrev S4x512 : Shape := ⟨2, ![4, 512]⟩
abbrev S512 : Shape := ⟨1, ![512]⟩

class Facts : Prop where
  bcast_S_S4x512x128 : S_.BroadcastsInDim S4x512x128 (![] : Fin 0 → Fin S4x512x128.rank)
  reducesTo_S4x512x128_S_d0_1_2 : S4x512x128.ReducesTo [0, 1, 2] S_
  h_S_ : 0 < S_.numel
  bcast_S_S512x128 : S_.BroadcastsInDim S512x128 (![] : Fin 0 → Fin S512x128.rank)
  reducesTo_S512x128_S_d0_1 : S512x128.ReducesTo [0, 1] S_
  reducesTo_S4x512x128_S4x512_d2 : S4x512x128.ReducesTo [2] S4x512
  bcast_S_S4x512 : S_.BroadcastsInDim S4x512 (![] : Fin 0 → Fin S4x512.rank)
  reducesTo_S4x512_S_d0_1 : S4x512.ReducesTo [0, 1] S_
  reducesTo_S512x128_S512_d1 : S512x128.ReducesTo [1] S512
  bcast_S_S512 : S_.BroadcastsInDim S512 (![] : Fin 0 → Fin S512.rank)
  reducesTo_S512_S_d0 : S512.ReducesTo [0] S_

variable [Facts]

def fn_part1 {F : FTy → Type} [FloatOps F] (main_v14 : IVec S_ 1) (main_v15 : FVec F S512x128 .f32) (main_cst_5 : FVec F S_ .f32) : IVec S_ 1 :=
  let main_v16 : FVec F S512 .f32 := (fun x v => Host.reduceAdd x v reducesTo_S512x128_S512_d1 h_S_) main_v15 main_cst_5
  let main_cst_6 : FVec F S_ .f32 := constant S_ .f32 0x00000000#32
  let main_v17 : FVec F S512 .f32 := broadcastInDim S512 ![] bcast_S_S512 main_cst_6
  let main_v18 : IVec S512 1 := cmpf .ogt main_v16 main_v17
  let main_c_7 : IVec S_ 1 := constantI S_ 1 1#1
  let main_v19 : IVec S_ 1 := (fun x v => Host.reduce IntOp.andi x v reducesTo_S512_S_d0 h_S_) main_v18 main_c_7
  let main_v20 : IVec S_ 1 := andi main_v14 main_v19
  main_v20

def fn {F : FTy → Type} [FloatOps F] (main_arg0 : FVec F S4x512x128 .f32) (main_arg1 : FVec F S512x128 .f32) : IVec S_ 1 :=
  let main_v0 : FVec F S4x512x128 .f32 := Host.absf main_arg0
  let main_cst : FVec F S_ .f32 := constant S_ .f32 0x7F800000#32
  let main_v1 : FVec F S4x512x128 .f32 := broadcastInDim S4x512x128 ![] bcast_S_S4x512x128 main_cst
  let main_v2 : IVec S4x512x128 1 := cmpf .olt main_v0 main_v1
  let main_c : IVec S_ 1 := constantI S_ 1 1#1
  let main_v3 : IVec S_ 1 := (fun x v => Host.reduce IntOp.andi x v reducesTo_S4x512x128_S_d0_1_2 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S4x512x128 .f32 := mulf main_arg0 main_arg0
  let main_cst_2 : FVec F S_ .f32 := constant S_ .f32 0x00000000#32
  let main_v10 : FVec F S4x512 .f32 := (fun x v => Host.reduceAdd x v reducesTo_S4x512x128_S4x512_d2 h_S_) main_v9 main_cst_2
  let main_cst_3 : FVec F S_ .f32 := constant S_ .f32 0x00000000#32
  let main_v11 : FVec F S4x512 .f32 := broadcastInDim S4x512 ![] bcast_S_S4x512 main_cst_3
  let main_v12 : IVec S4x512 1 := cmpf .ogt main_v10 main_v11
  let main_c_4 : IVec S_ 1 := constantI S_ 1 1#1
  let main_v13 : IVec S_ 1 := (fun x v => Host.reduce IntOp.andi x v reducesTo_S4x512_S_d0_1 h_S_) main_v12 main_c_4
  let main_v14 : IVec S_ 1 := andi main_v8 main_v13
  let main_v15 : FVec F S512x128 .f32 := mulf main_arg1 main_arg1
  let main_cst_5 : FVec F S_ .f32 := constant S_ .f32 0x00000000#32
  fn_part1 (F := F) main_v14 main_v15 main_cst_5
-- ==== Kernel.lean ====
abbrev S4x512x128 : Shape := ⟨3, ![4, 512, 128]⟩
abbrev S512x128 : Shape := ⟨2, ![512, 128]⟩
abbrev S4x512x512 : Shape := ⟨3, ![4, 512, 512]⟩
abbrev S1x256x128 : Shape := ⟨3, ![1, 256, 128]⟩
abbrev S256x128 : Shape := ⟨2, ![256, 128]⟩
abbrev S1x256x256 : Shape := ⟨3, ![1, 256, 256]⟩
abbrev S256 : Shape := ⟨1, ![256]⟩
abbrev S256x1 : Shape := ⟨2, ![256, 1]⟩
abbrev S128x256 : Shape := ⟨2, ![128, 256]⟩
abbrev S256x256 : Shape := ⟨2, ![256, 256]⟩
abbrev S1x256 : Shape := ⟨2, ![1, 256]⟩
abbrev S64x128 : Shape := ⟨2, ![64, 128]⟩
abbrev S256x1x128 : Shape := ⟨3, ![256, 1, 128]⟩
abbrev S1x64x128 : Shape := ⟨3, ![1, 64, 128]⟩
abbrev S256x64x128 : Shape := ⟨3, ![256, 64, 128]⟩
abbrev S256x64 : Shape := ⟨2, ![256, 64]⟩
abbrev S1x256x64 : Shape := ⟨3, ![1, 256, 64]⟩
abbrev S4x512x512x1 : Shape := ⟨4, ![4, 512, 512, 1]⟩
abbrev S4x512x512x3 : Shape := ⟨4, ![4, 512, 512, 3]⟩

abbrev nBuf : Space → Nat
  | .hbm => 9
  | .vmem => 10
  | .smem => 0
  | _ => 0

abbrev bufTy : (tb : Table) → Fin (tcTables nBuf tb) → BufTy
  | .hbm, ⟨0, _⟩ => ⟨S4x512x128, .f32⟩
  | .hbm, ⟨1, _⟩ => ⟨S512x128, .f32⟩
  | .hbm, ⟨2, _⟩ => ⟨S4x512x512, .f32⟩
  | .hbm, ⟨3, _⟩ => ⟨S4x512x512, .f32⟩
  | .hbm, ⟨4, _⟩ => ⟨S4x512x512, .f32⟩
  | .hbm, ⟨5, _⟩ => ⟨S4x512x512x1, .f32⟩
  | .hbm, ⟨6, _⟩ => ⟨S4x512x512x1, .f32⟩
  | .hbm, ⟨7, _⟩ => ⟨S4x512x512x1, .f32⟩
  | .hbm, ⟨8, _⟩ => ⟨S4x512x512x3, .f32⟩
  | .local _ .vmem, ⟨0, _⟩ => ⟨S1x256x128, .f32⟩
  | .local _ .vmem, ⟨1, _⟩ => ⟨S1x256x128, .f32⟩
  | .local _ .vmem, ⟨2, _⟩ => ⟨S256x128, .f32⟩
  | .local _ .vmem, ⟨3, _⟩ => ⟨S256x128, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | _, _ => ⟨S4x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S256x128_S256x128_0_0 : ∀ a, (![0, 0] : Fin 2 → Nat) a + S256x128.size a ≤ S256x128.size a
  h_S256x128 : 0 < S256x128.numel
  reduces_S256x128_S256 : S256x128.Reduces [1] S256
  shapeCasts_S256_S256x1 : S256.ShapeCasts S256x1
  broadcasts_S256x1_S256x128 : S256x1.Broadcasts S256x128
  transposes_S256x128_p1_0_S128x256 : S256x128.Transposes [1, 0] S128x256
  transposes_S256x1_p1_0_S1x256 : S256x1.Transposes [1, 0] S1x256
  broadcasts_S256x1_S256x256 : S256x1.Broadcasts S256x256
  broadcasts_S1x256_S256x256 : S1x256.Broadcasts S256x256
  slices_S256x128_o0_0_S64x128 : S256x128.Slices ![0, 0] S64x128
  shapeCasts_S256x128_S256x1x128 : S256x128.ShapeCasts S256x1x128
  shapeCasts_S64x128_S1x64x128 : S64x128.ShapeCasts S1x64x128
  broadcasts_S256x1x128_S256x64x128 : S256x1x128.Broadcasts S256x64x128
  broadcasts_S1x64x128_S256x64x128 : S1x64x128.Broadcasts S256x64x128
  reduces_S256x64x128_S256x64 : S256x64x128.Reduces [2] S256x64
  inb_S1x256x256_S1x256x64_0_0_0 : ∀ a, (![0, 0, 0] : Fin 3 → Nat) a + S1x256x64.size a ≤ S1x256x256.size a
  h_S1x256x64 : 0 < S1x256x64.numel
  shapeCasts_S1x256x64_S256x64 : S1x256x64.ShapeCasts S256x64
  shapeCasts_S256x64_S1x256x64 : S256x64.ShapeCasts S1x256x64
  slices_S256x128_o64_0_S64x128 : S256x128.Slices ![64, 0] S64x128
  inb_S1x256x256_S1x256x64_0_0_64 : ∀ a, (![0, 0, 64] : Fin 3 → Nat) a + S1x256x64.size a ≤ S1x256x256.size a
  slices_S256x128_o128_0_S64x128 : S256x128.Slices ![128, 0] S64x128
  inb_S1x256x256_S1x256x64_0_0_128 : ∀ a, (![0, 0, 128] : Fin 3 → Nat) a + S1x256x64.size a ≤ S1x256x256.size a
  slices_S256x128_o192_0_S64x128 : S256x128.Slices ![192, 0] S64x128
  inb_S1x256x256_S1x256x64_0_0_192 : ∀ a, (![0, 0, 192] : Fin 3 → Nat) a + S1x256x64.size a ≤ S1x256x256.size a
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  bcast_S4x512x512_S4x512x512x1_0_1_2 : S4x512x512.BroadcastsInDim S4x512x512x1 (![0, 1, 2] : Fin 3 → Fin S4x512x512x1.rank)
  concatenates_S4x512x512x1_S4x512x512x1_S4x512x512x1_S4x512x512x3_d3 : Shape.Concatenates [S4x512x512x1, S4x512x512x1, S4x512x512x1] S4x512x512x3 3
  dot_S256x128_S128x256_S256x256_1_0_0_1_n_n_wf : DotDims.WF S256x128 S128x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x128.size a ≤ S4x512x128.size a
  hwx0_0 : ∀ i : grid0.Coords, EltTy.bits .f32 = 32 ∨ (Rect.block (s := S4x512x128) S1x256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S512x128.size a
  hwx0_1 : ∀ i : grid0.Coords, EltTy.bits .f32 = 32 ∨ (Rect.block (s := S512x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x256.size a ≤ S4x512x512.size a
  hwx0_2 : ∀ i : grid0.Coords, EltTy.bits .f32 = 32 ∨ (Rect.block (s := S4x512x512) S1x256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x256.size a ≤ S4x512x512.size a
  hwx0_3 : ∀ i : grid0.Coords, EltTy.bits .f32 = 32 ∨ (Rect.block (s := S4x512x512) S1x256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x256.size a ≤ S4x512x512.size a
  hwx0_4 : ∀ i : grid0.Coords, EltTy.bits .f32 = 32 ∨ (Rect.block (s := S4x512x512) S1x256x256.size (cc0_transform_4 i) (hinb0_4 i)).WholeWords (EltTy.packing .f32)

variable [Facts₀]

def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf

abbrev win0_0 : Pipeline.Window sig grid0 :=
  Pipeline.Window.ofSpec (Memref.whole main_arg0) S1x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x256x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x256x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x256x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x512x128 : Shape := ⟨3, ![4, 512, 128]⟩
abbrev S512x128 : Shape := ⟨2, ![512, 128]⟩
abbrev S_ : Shape := ⟨0, ![]⟩
abbrev S4x512 : Shape := ⟨2, ![4, 512]⟩
abbrev S4x512x1 : Shape := ⟨3, ![4, 512, 1]⟩
abbrev S512 : Shape := ⟨1, ![512]⟩
abbrev S512x1 : Shape := ⟨2, ![512, 1]⟩
abbrev S4x512x512 : Shape := ⟨3, ![4, 512, 512]⟩
abbrev S4x512x1x128 : Shape := ⟨4, ![4, 512, 1, 128]⟩
abbrev S1x1x512x128 : Shape := ⟨4, ![1, 1, 512, 128]⟩
abbrev S4x512x512x128 : Shape := ⟨4, ![4, 512, 512, 128]⟩
abbrev S4x512x512x1 : Shape := ⟨4, ![4, 512, 512, 1]⟩
abbrev S4x512x512x3 : Shape := ⟨4, ![4, 512, 512, 3]⟩

abbrev nBuf : Space → Nat
  | .hbm => 33
  | .vmem => 0
  | .smem => 0
  | _ => 0

abbrev bufTy : (tb : Table) → Fin (tcTables nBuf tb) → BufTy
  | .hbm, ⟨0, _⟩ => ⟨S4x512x128, .f32⟩
  | .hbm, ⟨1, _⟩ => ⟨S512x128, .f32⟩
  | .hbm, ⟨2, _⟩ => ⟨S4x512x128, .f32⟩
  | .hbm, ⟨3, _⟩ => ⟨S_, .f32⟩
  | .hbm, ⟨4, _⟩ => ⟨S4x512, .f32⟩
  | .hbm, ⟨5, _⟩ => ⟨S4x512x1, .f32⟩
  | .hbm, ⟨6, _⟩ => ⟨S4x512x1, .f32⟩
  | .hbm, ⟨7, _⟩ => ⟨S4x512x128, .f32⟩
  | .hbm, ⟨8, _⟩ => ⟨S4x512x128, .f32⟩
  | .hbm, ⟨9, _⟩ => ⟨S512x128, .f32⟩
  | .hbm, ⟨10, _⟩ => ⟨S_, .f32⟩
  | .hbm, ⟨11, _⟩ => ⟨S512, .f32⟩
  | .hbm, ⟨12, _⟩ => ⟨S512x1, .f32⟩
  | .hbm, ⟨13, _⟩ => ⟨S512x1, .f32⟩
  | .hbm, ⟨14, _⟩ => ⟨S512x128, .f32⟩
  | .hbm, ⟨15, _⟩ => ⟨S512x128, .f32⟩
  | .hbm, ⟨16, _⟩ => ⟨S4x512x512, .f32⟩
  | .hbm, ⟨17, _⟩ => ⟨S4x512x1x128, .f32⟩
  | .hbm, ⟨18, _⟩ => ⟨S1x1x512x128, .f32⟩
  | .hbm, ⟨19, _⟩ => ⟨S4x512x512x128, .f32⟩
  | .hbm, ⟨20, _⟩ => ⟨S4x512x512x128, .f32⟩
  | .hbm, ⟨21, _⟩ => ⟨S4x512x512x128, .f32⟩
  | .hbm, ⟨22, _⟩ => ⟨S4x512x512x128, .f32⟩
  | .hbm, ⟨23, _⟩ => ⟨S_, .f32⟩
  | .hbm, ⟨24, _⟩ => ⟨S4x512x512, .f32⟩
  | .hbm, ⟨25, _⟩ => ⟨S4x512x512x128, .f32⟩
  | .hbm, ⟨26, _⟩ => ⟨S_, .f32⟩
  | .hbm, ⟨27, _⟩ => ⟨S4x512x512, .f32⟩
  | .hbm, ⟨28, _⟩ => ⟨S4x512x512, .f32⟩
  | .hbm, ⟨29, _⟩ => ⟨S4x512x512x1, .f32⟩
  | .hbm, ⟨30, _⟩ => ⟨S4x512x512x1, .f32⟩
  | .hbm, ⟨31, _⟩ => ⟨S4x512x512x1, .f32⟩
  | .hbm, ⟨32, _⟩ => ⟨S4x512x512x3, .f32⟩
  | _, _ => ⟨S4x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_call1_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]

class Facts₀ : Prop where
  reducesTo_S4x512x128_S4x512_d2 : S4x512x128.ReducesTo [2] S4x512
  h_S_ : 0 < S_.numel
  bcast_S4x512_S4x512x1_0_1 : S4x512.BroadcastsInDim S4x512x1 (![0, 1] : Fin 2 → Fin S4x512x1.rank)
  bcast_S4x512x1_S4x512x128_0_1_2 : S4x512x1.BroadcastsInDim S4x512x128 (![0, 1, 2] : Fin 3 → Fin S4x512x128.rank)
  reducesTo_S512x128_S512_d1 : S512x128.ReducesTo [1] S512
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S4x512x128_S4x512x1x128_0_1_3 : S4x512x128.BroadcastsInDim S4x512x1x128 (![0, 1, 3] : Fin 3 → Fin S4x512x1x128.rank)
  bcast_S512x128_S1x1x512x128_2_3 : S512x128.BroadcastsInDim S1x1x512x128 (![2, 3] : Fin 2 → Fin S1x1x512x128.rank)
  bcast_S4x512x1x128_S4x512x512x128_0_1_2_3 : S4x512x1x128.BroadcastsInDim S4x512x512x128 (![0, 1, 2, 3] : Fin 4 → Fin S4x512x512x128.rank)
  bcast_S1x1x512x128_S4x512x512x128_0_1_2_3 : S1x1x512x128.BroadcastsInDim S4x512x512x128 (![0, 1, 2, 3] : Fin 4 → Fin S4x512x512x128.rank)
  reducesTo_S4x512x512x128_S4x512x512_d3 : S4x512x512x128.ReducesTo [3] S4x512x512
  bcast_S4x512x512_S4x512x512x1_0_1_2 : S4x512x512.BroadcastsInDim S4x512x512x1 (![0, 1, 2] : Fin 3 → Fin S4x512x512x1.rank)
  concatenates_S4x512x512x1_S4x512x512x1_S4x512x512x1_S4x512x512x3_d3 : Shape.Concatenates [S4x512x512x1, S4x512x512x1, S4x512x512x1] S4x512x512x3 3
  dot_S4x512x128_S512x128_S4x512x512_2_1_01_0_n_n_wf : DotDims.WF S4x512x128 S512x128 S4x512x512 [2] [1] [0, 1] [0] [] []

variable [Facts₀]

def dot_S4x512x128_S512x128_S4x512x512_2_1_01_0_n_n : DotDims S4x512x128 S512x128 S4x512x512 where
  lhsContracting := [2]
  rhsContracting := [1]
  lhsNonContracting := [0, 1]
  rhsNonContracting := [0]
  lhsBatch := []
  rhsBatch := []
  wf := dot_S4x512x128_S512x128_S4x512x512_2_1_01_0_n_n_wf

class Facts : Prop extends Facts₀ where

variable [Facts]
-- ==== Proof.KernelRun.lean ====
/-
  The pairwise-distance kernel run on the TensorCores, as printed (at any float instance; cited at the word level).

  The grid is 4 × 2 × 2. Point (b, n, mm) is handed the block X of rows 256·n … 256·n + 255 of batch b of x and the block
  Y of rows 256·mm … 256·mm + 255 of y, and leaves three 256 × 256 tiles: the cosine tile, the L1 tile (stored in four
  bands of 64 columns) and the L2 tile. Each tile is a function of the two blocks alone, so the three result arrays end
  at the tiles written back block by block, and the four host lines after the region stack them along a new last axis.
  The two argument arrays are only read, which is all that is claimed of this program.
-/
import proofs.«166156_j11759620456454_2_alg».proof.Proof.Gen.Kernel.Launch
import proofs.«166156_j11759620456454_2_alg».proof.Proof.Gen.Kernel.Skeleton
import proofs.«166156_j11759620456454_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The rectangles the body reads and writes through -/

/-- The whole 1 × 256 × 128 block of x. -/
abbrev rX : Rect S1x256x128 := Rect.unit (s := S1x256x128) ![0, 0, 0] S1x256x128.size inb_S1x256x128_S1x256x128_0_0_0
/-- The whole 256 × 128 block of y. -/
abbrev rY : Rect S256x128 := Rect.unit (s := S256x128) ![0, 0] S256x128.size inb_S256x128_S256x128_0_0
/-- A whole 1 × 256 × 256 output tile. -/
abbrev rT : Rect S1x256x256 := Rect.unit (s := S1x256x256) ![0, 0, 0] S1x256x256.size inb_S1x256x256_S1x256x256_0_0_0
/-- Band s of an output tile: its columns 64·s … 64·s + 63. -/
abbrev band0 : Rect S1x256x256 := Rect.unit (s := S1x256x256) ![0, 0, 0] S1x256x64.size inb_S1x256x256_S1x256x64_0_0_0
abbrev band1 : Rect S1x256x256 := Rect.unit (s := S1x256x256) ![0, 0, 64] S1x256x64.size inb_S1x256x256_S1x256x64_0_0_64
abbrev band2 : Rect S1x256x256 := Rect.unit (s := S1x256x256) ![0, 0, 128] S1x256x64.size inb_S1x256x256_S1x256x64_0_0_128
abbrev band3 : Rect S1x256x256 := Rect.unit (s := S1x256x256) ![0, 0, 192] S1x256x64.size inb_S1x256x256_S1x256x64_0_0_192

/-! ## The three tiles one grid point leaves, as functions of its two input blocks -/

/-- The cosine tile: the product of the row-normalised blocks, stored whole. -/
def cosTile (x : Vec F S1x256x128 .f32) (y : Vec F S256x128 .f32) : Vec F S1x256x256 .f32 :=
  View.canon [⟨rT, k0_pay11 (k0_pay4 (View.ld x rX) (View.ld y rY))⟩]

/-- The L1 tile: four bands of 64 columns, band s the sums of absolute differences against rows 64·s … of the y block
    (the last band written comes first). -/
def l1Tile (x : Vec F S1x256x128 .f32) (y : Vec F S256x128 .f32) : Vec F S1x256x256 .f32 :=
  View.canon [⟨band3, k0_pay10 (k0_pay1 (View.ld x rX)) (View.ld y rY)⟩, ⟨band2, k0_pay9 (k0_pay1 (View.ld x rX)) (View.ld y rY)⟩,
    ⟨band1, k0_pay8 (k0_pay1 (View.ld x rX)) (k0_pay7 (View.ld y rY))⟩, ⟨band0, k0_pay6 (View.ld x rX) (View.ld y rY)⟩]

/-- The L2 tile: the square root of the clamped Gram expression, stored whole. -/
def l2Tile (x : Vec F S1x256x128 .f32) (y : Vec F S256x128 .f32) : Vec F S1x256x256 .f32 :=
  View.canon [⟨rT, k0_pay12 (k0_pay5 (View.ld x rX) (View.ld y rY))⟩]

/-- One whole store covers a tile. -/
theorem cover_whole (p : Vec F S1x256x256 .f32) (y : S1x256x256.Idx) :
    ∃ pc ∈ ([⟨rT, p⟩] : List (View.Piece (Elt F) S1x256x256 .f32)), y ∈ pc.1.set :=
  View.cover_of_tiled [⟨rT, p⟩] S1x256x256.size (by rfl) y

/-- The four bands of 64 columns cover a tile. -/
theorem cover_bands (p3 p2 p1 p0 : Vec F S1x256x64 .f32) (y : S1x256x256.Idx) :
    ∃ pc ∈ ([⟨band3, p3⟩, ⟨band2, p2⟩, ⟨band1, p1⟩, ⟨band0, p0⟩] : List (View.Piece (Elt F) S1x256x256 .f32)), y ∈ pc.1.set :=
  View.cover_of_tiled [⟨band3, p3⟩, ⟨band2, p2⟩, ⟨band1, p1⟩, ⟨band0, p0⟩] S1x256x64.size (by rfl) y

/-! ## The body on its five staging buffers -/

set_option maxHeartbeats 1000000 in
/-- On whole staging buffers — the two inputs at contents x and y, the three outputs at anything — the body runs to its
    end leaving the inputs as they were and the outputs at the three tiles of x and y. What it reads of the output buffers
    it never uses. -/
theorem body_run (c : Dev nD) (E : Set ℕ) (i : grid0.Coords)
    (arg3 : Memref sig .tc .vmem S1x256x128 .f32) (harg3 : arg3.IsWhole) (arg4 : Memref sig .tc .vmem S256x128 .f32) (harg4 : arg4.IsWhole)
    (arg5 : Memref sig .tc .vmem S1x256x256 .f32) (harg5 : arg5.IsWhole) (arg6 : Memref sig .tc .vmem S1x256x256 .f32) (harg6 : arg6.IsWhole)
    (arg7 : Memref sig .tc .vmem S1x256x256 .f32) (harg7 : arg7.IsWhole)
    (x : Vec F S1x256x128 .f32) (y : Vec F S256x128 .f32) (K : PUnit → sProp 𝕄) :
    iprop(owns (c : Thread nD τ) arg3 fullShare x ∗ owns (c : Thread nD τ) arg4 fullShare y
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg3 fullShare x ∗ owns (c : Thread nD τ) arg4 fullShare y
            ∗ owns (c : Thread nD τ) arg5 fullShare (cosTile x y) ∗ owns (c : Thread nD τ) arg6 fullShare (l1Tile x y)
            ∗ owns (c : Thread nD τ) arg7 fullShare (l2Tile x y)) -∗ K ⟨⟩))
      ⊢ wp frame (wpE (defs₀ (F := F)) Variants.none c none) E (cc0__dist_kernel i arg3 harg3 arg4 harg4 arg5 harg5 arg6 harg6 arg7 harg7) K := by
  simp only [cc0__dist_kernel_eq_skeleton]; unfold cc0__dist_kernel_skel
  simp only [k0_part1_eq_skeleton, k0_part2_eq_skeleton]
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover_whole _)
  isplitl [H3]
  · iexists _; isplitr
    swap; · iexact H3
    ipureintro
    exact View.read_writes_eq_canon _ _ _ (cover_bands _ _ _ _)
  iexists _; isplitr
  swap; · iexact H4
  ipureintro
  exact View.read_writes_eq_canon _ _ _ (cover_whole _)

variable (m : (ℓ : Loc nD τ sig) → Buf (Elt F) ℓ) (ρ : Dev nD → PrngReg)

/-! ## @main: the region, then the four host lines that stack the three results -/

/-- Core c's buffers as the region finds them: nothing runs before it, so they are the launch memory. -/
abbrev memIn (c : Dev nD) : Valuation τ sig (Elt F) := StableHlo.after (List.flatten []) (fun b => m (c, b))
/-- The same, read at one buffer. -/
abbrev arrIn (c : Dev nD) (b : Ref sig .tc) : Buf (Elt F) ((c : Thread nD τ).loc b) := memIn m c (Proc.devRef .tc b)

/-- The lines after the region allocate nothing. -/
theorem tail_fresh : (hostOps1 : List (HloOp τ sig (Elt F))).Forall fun op => op.fresh = ∅ := by
  simp only [List.Forall]; repeat' constructor

/-- @main is the region continued by those lines. -/
theorem main_around (𝒱₀ : Variants) : Pipeline.HMainK (Ix := Unit) (Name := ℕ) (U := UR sig nD τ) (Lvl := ℕ) cfgs 0 defs₀ 𝒱₀ m (main (F := F)) (arrIn m)
      (fun _ => Pipeline.chain [StableHlo.seq hostOps1]) :=
  Pipeline.hmain_around cfgs 0 defs₀ 𝒱₀ m main [] [hostOps1] (by simp only [List.Forall])
    (by simp only [List.Forall]) main_chain

/-- They touch only the pipeline's arrays and the buffers that bypass the region, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem tail_fresh' : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp tail_fresh) op hop
/-- and write none of the five arrays: each writes its own result, the three unit-axis copies and the stacked array. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.unary_writes, StableHlo.nary_writes, Finset.mem_singleton] <;> exact StableHlo.devRef_ne_of_ne (by decide)

/-! ## The input blocks at a grid point -/

/-- Window w's block at point t, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (arrIn m c (Pipeline.arrRef spec0 w))

/-- The x window's buffer holds its block at every point, fetched there or not (its block index does not depend on the
    last grid coordinate, so it is fetched at every other point only). -/
theorem found_x {c : Dev nD} (dat : Dat τ (Elt F) Unit ℕ (UR sig nD τ) ℕ cfg0 c) (hA : dat.A 0 = arrIn m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The y window's buffer likewise. -/
theorem found_y {c : Dev nD} (dat : Dat τ (Elt F) Unit ℕ (UR sig nD τ) ℕ cfg0 c) (hA : dat.A 1 = arrIn m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## What each window's buffer holds after the body, point by point -/

/-- The arrays as the region finds them; after the body at point t the inputs' buffers at their blocks and the outputs'
    at the three tiles of those blocks; nothing owed, nothing kept between points. -/
def dats (_ : Fin 1) (c : Dev nD) : Dat τ (Elt F) Unit ℕ (UR sig nD τ) ℕ cfg0 c where
  A w := arrIn m c (Pipeline.arrRef spec0 w)
  after w t := match w with
    | ⟨0, _⟩ => blockAt m c 0 t
    | ⟨1, _⟩ => blockAt m c 1 t
    | ⟨2, _⟩ => cosTile (blockAt m c 0 t) (blockAt m c 1 t)
    | ⟨3, _⟩ => l1Tile (blockAt m c 0 t) (blockAt m c 1 t)
    | ⟨4, _⟩ => l2Tile (blockAt m c 0 t) (blockAt m c 1 t)
  Φ _ := Pipeline.ΦA spec0 c
  q _ := fullShare
  owed _ := 0

theorem A_eq (c : Dev nD) (w : Fin cfg0.W) : (dats m 0 c).A w = arrIn m c (Pipeline.arrRef spec0 w) := by
  dsimp only [dats]

theorem after_x (c : Dev nD) (t : Fin cfg0.N) : (dats m 0 c).after 0 t = blockAt m c 0 t := by dsimp only [dats]
theorem after_y (c : Dev nD) (t : Fin cfg0.N) : (dats m 0 c).after 1 t = blockAt m c 1 t := by dsimp only [dats]
theorem after_cos (c : Dev nD) (t : Fin cfg0.N) : (dats m 0 c).after 2 t = cosTile (blockAt m c 0 t) (blockAt m c 1 t) := by dsimp only [dats]
theorem after_l1 (c : Dev nD) (t : Fin cfg0.N) : (dats m 0 c).after 3 t = l1Tile (blockAt m c 0 t) (blockAt m c 1 t) := by dsimp only [dats]
theorem after_l2 (c : Dev nD) (t : Fin cfg0.N) : (dats m 0 c).after 4 t = l2Tile (blockAt m c 0 t) (blockAt m c 1 t) := by dsimp only [dats]

theorem before_x (c : Dev nD) (t : Fin cfg0.N) (d) : (dats m 0 c).before 0 t d = blockAt m c 0 t :=
  found_x m (dats m 0 c) (A_eq m c 0) (after_x m c) t d
theorem before_y (c : Dev nD) (t : Fin cfg0.N) (d) : (dats m 0 c).before 1 t d = blockAt m c 1 t :=
  found_y m (dats m 0 c) (A_eq m c 1) (after_y m c) t d

/-! ## The body at a grid point -/

/-- What the body is handed at point t, -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it hands back. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- At any point the inputs' buffers hold their blocks, so the body's run applies; the rest passes through unread. -/
theorem point_run (c : Dev nD) (t : Fin cfg0.N) :
    pointPre m c t ⊢ wp frame (wpE (defs₀ (F := F)) Variants.none c none) Set.univ (bodyAt0 t) (fun _ => pointPost m c t) := by
  unfold pointPre pointPost bodyAt0
  simp only [before_x, before_y]
  rw [show (dats m 0 c).Φ t.succ = (dats m 0 c).Φ t.castSucc from rfl,
    show (dats m 0 c).owesAt () t.succ = (dats m 0 c).owesAt () t.castSucc from rfl,
    after_x, after_y, after_cos, after_l1, after_l2]
  iintro ⟨HΦ, Ho, ⟨%d0, H0⟩, ⟨%d1, H1⟩, ⟨%d2, H2⟩, ⟨%d3, H3⟩, ⟨%d4, H4⟩⟩
  iapply (body_run c Set.univ (grid0.coords t) _ _ _ _ _ _ _ _ _ _ (blockAt m c 0 t) (blockAt m c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body's obligation to the pipeline, at every point. -/
theorem body_obligation (c : Dev nD) : BodyObligation (dats (F := F) m 0 c) (defs₀ (F := F)) Variants.none () Set.univ := fun t => by
  rw [bigSep_W0, bigSep_W0]
  exact point_run m c t

/-! ## The run -/

set_option backward.isDefEq.respectTransparency.types false in
/-- From any memory with zero counters every weakly fair execution of @main terminates, each of the five arrays ending at
    what the write-backs of the points' tiles leave in it and every other unscoped buffer as the four host lines leave it. -/
theorem run_main : θ_run defs (onTc (τ := τ) (main (F := F))) (s₀ m ρ) (Pipeline.FramePost cfgs (dats m) 0 (Pipeline.afterTail₀ cfgs (dats m) 0 (memIn m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := memIn m) (opss := [hostOps1]) (hsub := tail_sub) (hfresh := tail_fresh') (hkeep := tail_keeps)
    (hmain := main_around m Variants.none) (hA := A_eq m) (hΦ := fun _ _ => rfl)

/-- The two argument arrays end as launched: each is an input window's array, which the pipeline only reads. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans (A_eq m c 0)),
     ((h c).1 1).trans (((dats m 0 c).arrAt_in 1 rfl _).trans (A_eq m c 1))⟩) (run_main m ρ)

end Cert.Kernel.Tiles

end
-- ==== Proof.KernelIdealRun.lean ====
/-
  The pairwise-distance kernel run on the TensorCores, at any float instance.

  The grid is 4 × 2 × 2. Point (b, n, mm) is handed the block X of rows 256·n … 256·n + 255 of batch b of x and the block
  Y of rows 256·mm … 256·mm + 255 of y, and leaves three 256 × 256 tiles: the cosine tile (the product of the blocks
  with each row scaled by the reciprocal square root of its sum of squares), the L1 tile (entry (i, j) the sum over d of
  |X[i, d] − Y[j, d]|, stored in four bands of 64 columns) and the L2 tile (the square root of
  max(Σ X[i,·]² + Σ Y[j,·]² − 2·Σ X[i,·]·Y[j,·], 0)). Each tile is a function of the two blocks alone, so the three
  result arrays end at the tiles written back block by block, and the four host lines after the region stack them
  along a new last axis. The two argument arrays are only read.
-/
import proofs.«166156_j11759620456454_2_alg».proof.Proof.Gen.KernelIdeal.Launch
import proofs.«166156_j11759620456454_2_alg».proof.Proof.Gen.KernelIdeal.Skeleton
import proofs.«166156_j11759620456454_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The rectangles the body reads and writes through -/

/-- The whole 1 × 256 × 128 block of x. -/
abbrev rX : Rect S1x256x128 := Rect.unit (s := S1x256x128) ![0, 0, 0] S1x256x128.size inb_S1x256x128_S1x256x128_0_0_0
/-- The whole 256 × 128 block of y. -/
abbrev rY : Rect S256x128 := Rect.unit (s := S256x128) ![0, 0] S256x128.size inb_S256x128_S256x128_0_0
/-- A whole 1 × 256 × 256 output tile. -/
abbrev rT : Rect S1x256x256 := Rect.unit (s := S1x256x256) ![0, 0, 0] S1x256x256.size inb_S1x256x256_S1x256x256_0_0_0
/-- Band s of an output tile: its columns 64·s … 64·s + 63. -/
abbrev band0 : Rect S1x256x256 := Rect.unit (s := S1x256x256) ![0, 0, 0] S1x256x64.size inb_S1x256x256_S1x256x64_0_0_0
abbrev band1 : Rect S1x256x256 := Rect.unit (s := S1x256x256) ![0, 0, 64] S1x256x64.size inb_S1x256x256_S1x256x64_0_0_64
abbrev band2 : Rect S1x256x256 := Rect.unit (s := S1x256x256) ![0, 0, 128] S1x256x64.size inb_S1x256x256_S1x256x64_0_0_128
abbrev band3 : Rect S1x256x256 := Rect.unit (s := S1x256x256) ![0, 0, 192] S1x256x64.size inb_S1x256x256_S1x256x64_0_0_192

/-! ## The three tiles one grid point leaves, as functions of its two input blocks -/

/-- The cosine tile: the product of the row-normalised blocks, stored whole. -/
def cosTile (x : Vec F S1x256x128 .f32) (y : Vec F S256x128 .f32) : Vec F S1x256x256 .f32 :=
  View.canon [⟨rT, k0_pay11 (k0_pay4 (View.ld x rX) (View.ld y rY))⟩]

/-- The L1 tile: four bands of 64 columns, band s the sums of absolute differences against rows 64·s … of the y block
    (the last band written comes first). -/
def l1Tile (x : Vec F S1x256x128 .f32) (y : Vec F S256x128 .f32) : Vec F S1x256x256 .f32 :=
  View.canon [⟨band3, k0_pay10 (k0_pay1 (View.ld x rX)) (View.ld y rY)⟩, ⟨band2, k0_pay9 (k0_pay1 (View.ld x rX)) (View.ld y rY)⟩,
    ⟨band1, k0_pay8 (k0_pay1 (View.ld x rX)) (k0_pay7 (View.ld y rY))⟩, ⟨band0, k0_pay6 (View.ld x rX) (View.ld y rY)⟩]

/-- The L2 tile: the square root of the clamped Gram expression, stored whole. -/
def l2Tile (x : Vec F S1x256x128 .f32) (y : Vec F S256x128 .f32) : Vec F S1x256x256 .f32 :=
  View.canon [⟨rT, k0_pay12 (k0_pay5 (View.ld x rX) (View.ld y rY))⟩]

/-- One whole store covers a tile. -/
theorem cover_whole (p : Vec F S1x256x256 .f32) (y : S1x256x256.Idx) :
    ∃ pc ∈ ([⟨rT, p⟩] : List (View.Piece (Elt F) S1x256x256 .f32)), y ∈ pc.1.set :=
  View.cover_of_tiled [⟨rT, p⟩] S1x256x256.size (by rfl) y

/-- The four bands of 64 columns cover a tile. -/
theorem cover_bands (p3 p2 p1 p0 : Vec F S1x256x64 .f32) (y : S1x256x256.Idx) :
    ∃ pc ∈ ([⟨band3, p3⟩, ⟨band2, p2⟩, ⟨band1, p1⟩, ⟨band0, p0⟩] : List (View.Piece (Elt F) S1x256x256 .f32)), y ∈ pc.1.set :=
  View.cover_of_tiled [⟨band3, p3⟩, ⟨band2, p2⟩, ⟨band1, p1⟩, ⟨band0, p0⟩] S1x256x64.size (by rfl) y

/-! ## The body on its five staging buffers -/

set_option maxHeartbeats 1000000 in
/-- On whole staging buffers — the two inputs at contents x and y, the three outputs at anything — the body runs to its
    end leaving the inputs as they were and the outputs at the three tiles of x and y. What it reads of the output buffers
    it never uses. -/
theorem body_run (c : Dev nD) (E : Set ℕ) (i : grid0.Coords)
    (arg3 : Memref sig .tc .vmem S1x256x128 .f32) (harg3 : arg3.IsWhole) (arg4 : Memref sig .tc .vmem S256x128 .f32) (harg4 : arg4.IsWhole)
    (arg5 : Memref sig .tc .vmem S1x256x256 .f32) (harg5 : arg5.IsWhole) (arg6 : Memref sig .tc .vmem S1x256x256 .f32) (harg6 : arg6.IsWhole)
    (arg7 : Memref sig .tc .vmem S1x256x256 .f32) (harg7 : arg7.IsWhole)
    (x : Vec F S1x256x128 .f32) (y : Vec F S256x128 .f32) (K : PUnit → sProp 𝕄) :
    iprop(owns (c : Thread nD τ) arg3 fullShare x ∗ owns (c : Thread nD τ) arg4 fullShare y
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg3 fullShare x ∗ owns (c : Thread nD τ) arg4 fullShare y
            ∗ owns (c : Thread nD τ) arg5 fullShare (cosTile x y) ∗ owns (c : Thread nD τ) arg6 fullShare (l1Tile x y)
            ∗ owns (c : Thread nD τ) arg7 fullShare (l2Tile x y)) -∗ K ⟨⟩))
      ⊢ wp frame (wpE (defs₀ (F := F)) Variants.none c none) E (cc0__dist_kernel i arg3 harg3 arg4 harg4 arg5 harg5 arg6 harg6 arg7 harg7) K := by
  simp only [cc0__dist_kernel_eq_skeleton]; unfold cc0__dist_kernel_skel
  simp only [k0_part1_eq_skeleton, k0_part2_eq_skeleton]
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover_whole _)
  isplitl [H3]
  · iexists _; isplitr
    swap; · iexact H3
    ipureintro
    exact View.read_writes_eq_canon _ _ _ (cover_bands _ _ _ _)
  iexists _; isplitr
  swap; · iexact H4
  ipureintro
  exact View.read_writes_eq_canon _ _ _ (cover_whole _)

variable (m : (ℓ : Loc nD τ sig) → Buf (Elt F) ℓ) (ρ : Dev nD → PrngReg)

/-! ## @main: the region, then the four host lines that stack the three results -/

/-- Core c's buffers as the region finds them: nothing runs before it, so they are the launch memory. -/
abbrev memIn (c : Dev nD) : Valuation τ sig (Elt F) := StableHlo.after (List.flatten []) (fun b => m (c, b))
/-- The same, read at one buffer. -/
abbrev arrIn (c : Dev nD) (b : Ref sig .tc) : Buf (Elt F) ((c : Thread nD τ).loc b) := memIn m c (Proc.devRef .tc b)

/-- The lines after the region allocate nothing. -/
theorem tail_fresh : (hostOps1 : List (HloOp τ sig (Elt F))).Forall fun op => op.fresh = ∅ := by
  simp only [List.Forall]; repeat' constructor

/-- @main is the region continued by those lines. -/
theorem main_around (𝒱₀ : Variants) : Pipeline.HMainK (Ix := Unit) (Name := ℕ) (U := UR sig nD τ) (Lvl := ℕ) cfgs 0 defs₀ 𝒱₀ m (main (F := F)) (arrIn m)
      (fun _ => Pipeline.chain [StableHlo.seq hostOps1]) :=
  Pipeline.hmain_around cfgs 0 defs₀ 𝒱₀ m main [] [hostOps1] (by simp only [List.Forall])
    (by simp only [List.Forall]) main_chain

/-- They touch only the pipeline's arrays and the buffers that bypass the region, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem tail_fresh' : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp tail_fresh) op hop
/-- and write none of the five arrays: each writes its own result, the three unit-axis copies and the stacked array. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.unary_writes, StableHlo.nary_writes, Finset.mem_singleton] <;> exact StableHlo.devRef_ne_of_ne (by decide)

/-! ## The input blocks at a grid point -/

/-- Window w's block at point t, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (arrIn m c (Pipeline.arrRef spec0 w))

/-- The x window's buffer holds its block at every point, fetched there or not (its block index does not depend on the
    last grid coordinate, so it is fetched at every other point only). -/
theorem found_x {c : Dev nD} (dat : Dat τ (Elt F) Unit ℕ (UR sig nD τ) ℕ cfg0 c) (hA : dat.A 0 = arrIn m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The y window's buffer likewise. -/
theorem found_y {c : Dev nD} (dat : Dat τ (Elt F) Unit ℕ (UR sig nD τ) ℕ cfg0 c) (hA : dat.A 1 = arrIn m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## What each window's buffer holds after the body, point by point -/

/-- The arrays as the region finds them; after the body at point t the inputs' buffers at their blocks and the outputs'
    at the three tiles of those blocks; nothing owed, nothing kept between points. -/
def dats (_ : Fin 1) (c : Dev nD) : Dat τ (Elt F) Unit ℕ (UR sig nD τ) ℕ cfg0 c where
  A w := arrIn m c (Pipeline.arrRef spec0 w)
  after w t := match w with
    | ⟨0, _⟩ => blockAt m c 0 t
    | ⟨1, _⟩ => blockAt m c 1 t
    | ⟨2, _⟩ => cosTile (blockAt m c 0 t) (blockAt m c 1 t)
    | ⟨3, _⟩ => l1Tile (blockAt m c 0 t) (blockAt m c 1 t)
    | ⟨4, _⟩ => l2Tile (blockAt m c 0 t) (blockAt m c 1 t)
  Φ _ := Pipeline.ΦA spec0 c
  q _ := fullShare
  owed _ := 0

theorem A_eq (c : Dev nD) (w : Fin cfg0.W) : (dats m 0 c).A w = arrIn m c (Pipeline.arrRef spec0 w) := by
  dsimp only [dats]

theorem after_x (c : Dev nD) (t : Fin cfg0.N) : (dats m 0 c).after 0 t = blockAt m c 0 t := by dsimp only [dats]
theorem after_y (c : Dev nD) (t : Fin cfg0.N) : (dats m 0 c).after 1 t = blockAt m c 1 t := by dsimp only [dats]
theorem after_cos (c : Dev nD) (t : Fin cfg0.N) : (dats m 0 c).after 2 t = cosTile (blockAt m c 0 t) (blockAt m c 1 t) := by dsimp only [dats]
theorem after_l1 (c : Dev nD) (t : Fin cfg0.N) : (dats m 0 c).after 3 t = l1Tile (blockAt m c 0 t) (blockAt m c 1 t) := by dsimp only [dats]
theorem after_l2 (c : Dev nD) (t : Fin cfg0.N) : (dats m 0 c).after 4 t = l2Tile (blockAt m c 0 t) (blockAt m c 1 t) := by dsimp only [dats]

theorem before_x (c : Dev nD) (t : Fin cfg0.N) (d) : (dats m 0 c).before 0 t d = blockAt m c 0 t :=
  found_x m (dats m 0 c) (A_eq m c 0) (after_x m c) t d
theorem before_y (c : Dev nD) (t : Fin cfg0.N) (d) : (dats m 0 c).before 1 t d = blockAt m c 1 t :=
  found_y m (dats m 0 c) (A_eq m c 1) (after_y m c) t d

/-! ## The body at a grid point -/

/-- What the body is handed at point t, -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it hands back. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- At any point the inputs' buffers hold their blocks, so the body's run applies; the rest passes through unread. -/
theorem point_run (c : Dev nD) (t : Fin cfg0.N) :
    pointPre m c t ⊢ wp frame (wpE (defs₀ (F := F)) Variants.none c none) Set.univ (bodyAt0 t) (fun _ => pointPost m c t) := by
  unfold pointPre pointPost bodyAt0
  simp only [before_x, before_y]
  rw [show (dats m 0 c).Φ t.succ = (dats m 0 c).Φ t.castSucc from rfl,
    show (dats m 0 c).owesAt () t.succ = (dats m 0 c).owesAt () t.castSucc from rfl,
    after_x, after_y, after_cos, after_l1, after_l2]
  iintro ⟨HΦ, Ho, ⟨%d0, H0⟩, ⟨%d1, H1⟩, ⟨%d2, H2⟩, ⟨%d3, H3⟩, ⟨%d4, H4⟩⟩
  iapply (body_run c Set.univ (grid0.coords t) _ _ _ _ _ _ _ _ _ _ (blockAt m c 0 t) (blockAt m c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body's obligation to the pipeline, at every point. -/
theorem body_obligation (c : Dev nD) : BodyObligation (dats (F := F) m 0 c) (defs₀ (F := F)) Variants.none () Set.univ := fun t => by
  rw [bigSep_W0, bigSep_W0]
  exact point_run m c t

/-! ## The run -/

set_option backward.isDefEq.respectTransparency.types false in
/-- From any memory with zero counters every weakly fair execution of @main terminates, each of the five arrays ending at
    what the write-backs of the points' tiles leave in it and every other unscoped buffer as the four host lines leave it. -/
theorem run_main : θ_run defs (onTc (τ := τ) (main (F := F))) (s₀ m ρ) (Pipeline.FramePost cfgs (dats m) 0 (Pipeline.afterTail₀ cfgs (dats m) 0 (memIn m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := memIn m) (opss := [hostOps1]) (hsub := tail_sub) (hfresh := tail_fresh') (hkeep := tail_keeps)
    (hmain := main_around m Variants.none) (hA := A_eq m) (hΦ := fun _ _ => rfl)

/-- The two argument arrays end as launched: each is an input window's array, which the pipeline only reads. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans (A_eq m c 0)),
     ((h c).1 1).trans (((dats m 0 c).arrAt_in 1 rfl _).trans (A_eq m c 1))⟩) (run_main m ρ)

end Cert.KernelIdeal.Tiles

end
-- ==== Proof.LibLayout.lean ====
/-
  A few layout operations read at an index, for the shapes a row-wise reduction kept as a column meets: a vector made a
  column, a column spread over the columns of a matrix, a matrix given a middle unit axis, and the two ways a rank-3 array
  with one unit axis is spread over that axis; and a sum over the last axis of a matrix or of a rank-3 array as a plain
  finite sum.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Dist

open Idealize.ShloMosaic Idealize.ShloMosaic.ValueIdx
open scoped BigOperators

variable {α : Type}

/-- A vector of length a cast to a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- A matrix [a, b] cast to [a, 1, b] reads, at (i, u, j), the matrix at (i, j). -/
theorem shapeCast_ab_a1b_apply {a b : ℕ} (x : (⟨2, ![a, b]⟩ : Shape).Idx → α) (h : (⟨2, ![a, b]⟩ : Shape).ShapeCasts ⟨3, ![a, 1, b]⟩)
    (i : Fin a) (u : Fin 1) (j : Fin b) : shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An array [a, 1, b] broadcast to [a, c, b] reads, at (i, q, j), the array at (i, 0, j). -/
theorem broadcastTo_a1b_acb_apply {a c b : ℕ} (v : (⟨3, ![a, 1, b]⟩ : Shape).Idx → α)
    (h : (⟨3, ![a, 1, b]⟩ : Shape).Broadcasts ⟨3, ![a, c, b]⟩) (i : Fin a) (q : Fin c) (j : Fin b) :
    broadcastTo ⟨3, ![a, c, b]⟩ v h (ix3 i q j) = v (ix3 i (0 : Fin 1) j) := by
  refine broadcastTo_apply v h (ix3 i q j) (ix3 i (0 : Fin 1) j) fun ax => ?_
  match ax with
  | ⟨0, _⟩ =>
    show i.val = if a = 1 then 0 else i.val
    split
    · have := i.isLt; omega
    · rfl
  | ⟨1, _⟩ =>
    show 0 = if (1 : ℕ) = 1 then 0 else q.val
    rw [if_pos rfl]
  | ⟨2, _⟩ =>
    show j.val = if b = 1 then 0 else j.val
    split
    · have := j.isLt; omega
    · rfl

/-- An array [1, c, b] broadcast to [a, c, b] reads, at (i, q, j), the array at (0, q, j). -/
theorem broadcastTo_1cb_acb_apply {a c b : ℕ} (v : (⟨3, ![1, c, b]⟩ : Shape).Idx → α)
    (h : (⟨3, ![1, c, b]⟩ : Shape).Broadcasts ⟨3, ![a, c, b]⟩) (i : Fin a) (q : Fin c) (j : Fin b) :
    broadcastTo ⟨3, ![a, c, b]⟩ v h (ix3 i q j) = v (ix3 (0 : Fin 1) q j) := by
  refine broadcastTo_apply v h (ix3 i q j) (ix3 (0 : Fin 1) q j) fun ax => ?_
  match ax with
  | ⟨0, _⟩ =>
    show 0 = if (1 : ℕ) = 1 then 0 else i.val
    rw [if_pos rfl]
  | ⟨1, _⟩ =>
    show q.val = if c = 1 then 0 else q.val
    split
    · have := q.isLt; omega
    · rfl
  | ⟨2, _⟩ =>
    show j.val = if b = 1 then 0 else j.val
    split
    · have := j.isLt; omega
    · rfl

/-- A sum over the columns of a 256 × 128 matrix, from the zero word, read at row i. -/
theorem sum_cols_256x128 (src : FVec Ideal ⟨2, ![256, 128]⟩ .f32) (h : (⟨2, ![256, 128]⟩ : Shape).Reduces [1] ⟨1, ![256]⟩)
    (hφ : FKind.Formats .f32) (hacc : (0x00000000#32 : BitVec 32) = 0x00000000#32) (i : Fin 256) :
    multiReduction (F := Ideal) .add [1] ⟨1, ![256]⟩ src 0x00000000#32 h hφ hacc (ix1 i) = ∑ k : Fin 128, src (ix2 i k) := by
  refine (Ideal.multiReduction_add_single src 0x00000000#32 h hφ hacc (ix1 i)).trans ?_
  refine Finset.sum_congr rfl fun k _ => congrArg src (funext fun ax => Fin.ext ?_)
  match ax with
  | ⟨0, _⟩ => rfl
  | ⟨1, _⟩ => rfl

/-- A sum over the last axis of a 256 × 64 × 128 array, from the zero word, read at (i, q). -/
theorem sum_last_256x64x128 (src : FVec Ideal ⟨3, ![256, 64, 128]⟩ .f32) (h : (⟨3, ![256, 64, 128]⟩ : Shape).Reduces [2] ⟨2, ![256, 64]⟩)
    (hφ : FKind.Formats .f32) (hacc : (0x00000000#32 : BitVec 32) = 0x00000000#32) (i : Fin 256) (q : Fin 64) :
    multiReduction (F := Ideal) .add [2] ⟨2, ![256, 64]⟩ src 0x00000000#32 h hφ hacc (ix2 i q) = ∑ k : Fin 128, src (ix3 i q k) := by
  refine (Ideal.multiReduction_add_single src 0x00000000#32 h hφ hacc (ix2 i q)).trans ?_
  refine Finset.sum_congr rfl fun k _ => congrArg src (funext fun ax => Fin.ext ?_)
  match ax with
  | ⟨0, _⟩ => rfl
  | ⟨1, _⟩ => rfl
  | ⟨2, _⟩ => rfl

end Cert.Dist

end
-- ==== Proof.KernelIdealTileAt.lean ====
/-
  The three tiles of one grid point read at one entry, at the ideal instance, in terms of the two input blocks X (256 rows
  of x) and Y (256 rows of y):

    cosine (i, j) = Σ_k (X[i,k] · rsqrt(Σ_d X[i,d]²)) · (Y[j,k] · rsqrt(Σ_d Y[j,d]²))
    L1     (i, j) = Σ_d |X[i,d] − Y[j,d]|          (band s of the tile holds the columns j = 64·s … 64·s + 63)
    L2     (i, j) = √ max((Σ_d X[i,d]² + Σ_d Y[j,d]²) − 2·Σ_k X[i,k]·Y[j,k], 0)

  Each is the body's arithmetic read through its layout steps: a row sum kept as a column and spread back over the row,
  a transpose feeding the matrix product, the product itself as a sum over the contracted axis.
-/
import proofs.«166156_j11759620456454_2_alg».proof.Proof.KernelIdealRun
import proofs.«166156_j11759620456454_2_alg».proof.Proof.LibLayout
import Idealize.ShloMosaic.Lib.ValueLayout

noncomputable section

namespace Cert.KernelIdeal.Tiles

open Idealize.ShloMosaic Idealize.ShloMosaic.ValueIdx
open Cert.KernelIdeal Cert.KernelIdeal.Gen Cert.Dist
open scoped BigOperators

/-- On the product's left operand, the row coordinate is the output's row. -/
theorem mm_lhs_row (o : S256x256.Idx) (q : dot_S256x128_S128x256_S256x256_1_0_0_1_n_n.contr.Idx) : (dot_S256x128_S128x256_S256x256_1_0_0_1_n_n.lhsIdx o q 0).val = (o 0).val := by
  unfold DotDims.lhsIdx
  rw [dif_neg (show ¬(0 : Fin S256x128.rank) ∈ dot_S256x128_S128x256_S256x256_1_0_0_1_n_n.lhsBatch by decide), dif_pos (show (0 : Fin S256x128.rank) ∈ dot_S256x128_S128x256_S256x256_1_0_0_1_n_n.lhsNonContracting by decide)]
  rfl
/-- Its column coordinate is the contracted index. -/
theorem mm_lhs_col (o : S256x256.Idx) (q : dot_S256x128_S128x256_S256x256_1_0_0_1_n_n.contr.Idx) : (dot_S256x128_S128x256_S256x256_1_0_0_1_n_n.lhsIdx o q 1).val = (q ⟨0, by decide⟩).val :=
  dot_S256x128_S128x256_S256x256_1_0_0_1_n_n.lhsIdx_val_of_single rfl o q
/-- On the right operand, the row coordinate is the contracted index, -/
theorem mm_rhs_row (o : S256x256.Idx) (q : dot_S256x128_S128x256_S256x256_1_0_0_1_n_n.contr.Idx) : (dot_S256x128_S128x256_S256x256_1_0_0_1_n_n.rhsIdx o q 0).val = (q ⟨0, by decide⟩).val :=
  dot_S256x128_S128x256_S256x256_1_0_0_1_n_n.rhsIdx_val_of_single rfl o q
/-- and the column coordinate is the output's column. -/
theorem mm_rhs_col (o : S256x256.Idx) (q : dot_S256x128_S128x256_S256x256_1_0_0_1_n_n.contr.Idx) : (dot_S256x128_S128x256_S256x256_1_0_0_1_n_n.rhsIdx o q 1).val = (o 1).val := by
  unfold DotDims.rhsIdx
  rw [dif_neg (show ¬(1 : Fin S128x256.rank) ∈ dot_S256x128_S128x256_S256x256_1_0_0_1_n_n.rhsBatch by decide), dif_pos (show (1 : Fin S128x256.rank) ∈ dot_S256x128_S128x256_S256x256_1_0_0_1_n_n.rhsNonContracting by decide)]
  rfl

/-- The kernel's matrix product into the zero accumulator, at (i, j): the sum over the shared axis. -/
theorem mm_at (L : FVec Ideal S256x128 .f32) (R : FVec Ideal S128x256 .f32) (i j : Fin 256) :
    matmul (F := Ideal) dot_S256x128_S128x256_S256x256_1_0_0_1_n_n (some .fp32) L R (constant S256x256 .f32 0x00000000#32) (ix2 i j)
      = ∑ k : Fin 128, L (ix2 i k) * R (ix2 k j) := by
  simp only [matmul]
  rw [Ideal.matmul_constant_zero_apply, ← Equiv.sum_comp (ValueIdx.contrEquiv1 dot_S256x128_S128x256_S256x256_1_0_0_1_n_n 128 rfl rfl).symm]
  refine Finset.sum_congr rfl fun k _ => ?_
  have hk := ValueIdx.contrEquiv1_symm_val dot_S256x128_S128x256_S256x256_1_0_0_1_n_n 128 rfl rfl k
  have el : dot_S256x128_S128x256_S256x256_1_0_0_1_n_n.lhsIdx (ix2 i j) ((ValueIdx.contrEquiv1 dot_S256x128_S128x256_S256x256_1_0_0_1_n_n 128 rfl rfl).symm k) = ix2 i k := funext fun a => Fin.ext (by
    match a with
    | ⟨0, _⟩ => exact mm_lhs_row _ _
    | ⟨1, _⟩ => exact (mm_lhs_col _ _).trans hk)
  have er : dot_S256x128_S128x256_S256x256_1_0_0_1_n_n.rhsIdx (ix2 i j) ((ValueIdx.contrEquiv1 dot_S256x128_S128x256_S256x256_1_0_0_1_n_n 128 rfl rfl).symm k) = ix2 k j := funext fun a => Fin.ext (by
    match a with
    | ⟨0, _⟩ => exact (mm_rhs_row _ _).trans hk
    | ⟨1, _⟩ => exact mm_rhs_col _ _)
  rw [el, er]

/-- The x block without its unit axis. -/
theorem x_at (x : Vec Ideal S1x256x128 .f32) (i : Fin 256) (d : Fin 128) :
    k0_pay1 (F := Ideal) x (ix2 i d) = x (ix3 (0 : Fin 1) i d) := by
  unfold k0_pay1
  exact shapeCast_1ab_ab_apply x shapeCasts_S1x256x128_S256x128 i d

/-- The sum of squares of row i of the x block, kept as a column. -/
theorem xsq_at (x : Vec Ideal S1x256x128 .f32) (i : Fin 256) (u : Fin 1) :
    k0_pay2 (F := Ideal) x (ix2 i u) = ∑ d : Fin 128, x (ix3 (0 : Fin 1) i d) * x (ix3 (0 : Fin 1) i d) := by
  unfold k0_pay2
  refine (shapeCast_a_a1_apply _ shapeCasts_S256_S256x1 i u).trans ?_
  refine (sum_cols_256x128 _ reduces_S256x128_S256 (.inl rfl) rfl i).trans ?_
  refine Finset.sum_congr rfl fun d _ => ?_
  show k0_pay1 x (ix2 i d) * k0_pay1 x (ix2 i d) = _
  rw [x_at]

/-- The sum of squares of row j of the y block, kept as a column. -/
theorem ysq_at (y : Vec Ideal S256x128 .f32) (j : Fin 256) (u : Fin 1) :
    k0_pay3 (F := Ideal) y (ix2 j u) = ∑ d : Fin 128, y (ix2 j d) * y (ix2 j d) := by
  unfold k0_pay3
  refine (shapeCast_a_a1_apply _ shapeCasts_S256_S256x1 j u).trans ?_
  exact sum_cols_256x128 _ reduces_S256x128_S256 (.inl rfl) rfl j

/-- A block with each row scaled by the reciprocal square root of a column entry. -/
theorem scaled_at (v : FVec Ideal S256x128 .f32) (s : FVec Ideal S256x1 .f32) (i : Fin 256) (k : Fin 128) :
    mulf v (broadcastTo S256x128 (rsqrt s) broadcasts_S256x1_S256x128) (ix2 i k) = v (ix2 i k) * Ideal.rsqrt (s (ix2 i (0 : Fin 1))) :=
  congrArg (v (ix2 i k) * ·) (broadcastTo_a1_ab_apply (rsqrt s) broadcasts_S256x1_S256x128 i k)

/-- The cosine tile at (i, j). -/
theorem cos_at (x : Vec Ideal S1x256x128 .f32) (y : Vec Ideal S256x128 .f32) (i j : Fin 256) :
    k0_pay11 (F := Ideal) (k0_pay4 x y) (ix3 (0 : Fin 1) i j)
      = ∑ k : Fin 128, (x (ix3 (0 : Fin 1) i k) * Ideal.rsqrt (∑ d : Fin 128, x (ix3 (0 : Fin 1) i d) * x (ix3 (0 : Fin 1) i d)))
          * (y (ix2 j k) * Ideal.rsqrt (∑ d : Fin 128, y (ix2 j d) * y (ix2 j d))) := by
  unfold k0_pay11
  refine (shapeCast_ab_1ab_apply _ shapeCasts_S256x256_S1x256x256 (0 : Fin 1) i j).trans ?_
  unfold k0_pay4
  refine (mm_at _ _ i j).trans ?_
  refine Finset.sum_congr rfl fun k _ => ?_
  refine congrArg₂ (· * ·) ?_ ?_
  · refine (scaled_at (k0_pay1 x) (k0_pay2 x) i k).trans ?_
    rw [x_at, xsq_at]
  · refine (transpose_ix2_apply _ transposes_S256x128_p1_0_S128x256 k j).trans ?_
    refine (scaled_at y (k0_pay3 y) j k).trans ?_
    rw [ysq_at]

/-- The L2 tile at (i, j). -/
theorem l2_at (x : Vec Ideal S1x256x128 .f32) (y : Vec Ideal S256x128 .f32) (i j : Fin 256) :
    k0_pay12 (F := Ideal) (k0_pay5 x y) (ix3 (0 : Fin 1) i j)
      = Ideal.sqrt (max (((∑ d : Fin 128, x (ix3 (0 : Fin 1) i d) * x (ix3 (0 : Fin 1) i d)) + (∑ d : Fin 128, y (ix2 j d) * y (ix2 j d)))
          - Ideal.ofBits .f32 0x40000000#32 * (∑ k : Fin 128, x (ix3 (0 : Fin 1) i k) * y (ix2 j k))) (Ideal.ofBits .f32 0x00000000#32)) := by
  unfold k0_pay12
  refine (shapeCast_ab_1ab_apply _ shapeCasts_S256x256_S1x256x256 (0 : Fin 1) i j).trans ?_
  unfold k0_pay5
  have hA : broadcastTo S256x256 (k0_pay2 (F := Ideal) x) broadcasts_S256x1_S256x256 (ix2 i j)
      = ∑ d : Fin 128, x (ix3 (0 : Fin 1) i d) * x (ix3 (0 : Fin 1) i d) :=
    (broadcastTo_a1_ab_apply _ broadcasts_S256x1_S256x256 i j).trans (xsq_at x i 0)
  have hB : broadcastTo S256x256 (transpose S1x256 [1, 0] (k0_pay3 (F := Ideal) y) transposes_S256x1_p1_0_S1x256) broadcasts_S1x256_S256x256 (ix2 i j)
      = ∑ d : Fin 128, y (ix2 j d) * y (ix2 j d) :=
    (broadcastTo_1b_ab_apply _ broadcasts_S1x256_S256x256 i j).trans
      ((transpose_ix2_apply _ transposes_S256x1_p1_0_S1x256 (0 : Fin 1) j).trans (ysq_at y j 0))
  have hM : matmul (F := Ideal) dot_S256x128_S128x256_S256x256_1_0_0_1_n_n (some .fp32) (k0_pay1 x) (transpose S128x256 [1, 0] y transposes_S256x128_p1_0_S128x256)
        (constant S256x256 .f32 0x00000000#32) (ix2 i j) = ∑ k : Fin 128, x (ix3 (0 : Fin 1) i k) * y (ix2 j k) :=
    (mm_at _ _ i j).trans (Finset.sum_congr rfl fun k _ =>
      congrArg₂ (· * ·) (x_at x i k) (transpose_ix2_apply y transposes_S256x128_p1_0_S128x256 k j))
  exact congrArg Ideal.sqrt (congrArg₂ max (congrArg₂ (· - ·) (congrArg₂ (· + ·) hA hB) (congrArg (Ideal.ofBits .f32 0x40000000#32 * ·) hM)) rfl)

/-- One band of the L1 tile: against the 64 rows of the y block that a slice from row o takes. -/
theorem l1_band_at (xb : FVec Ideal S256x128 .f32) (yb : FVec Ideal S64x128 .f32) (i : Fin 256) (q : Fin 64) :
    multiReduction (F := Ideal) .add [2] S256x64
        (absf (subf (broadcastTo S256x64x128 (shapeCast S256x1x128 xb shapeCasts_S256x128_S256x1x128) broadcasts_S256x1x128_S256x64x128)
          (broadcastTo S256x64x128 (shapeCast S1x64x128 yb shapeCasts_S64x128_S1x64x128) broadcasts_S1x64x128_S256x64x128)))
        0x00000000#32 reduces_S256x64x128_S256x64 (.inl rfl) rfl (ix2 i q)
      = ∑ d : Fin 128, FloatOps.absf (xb (ix2 i d) - yb (ix2 q d)) := by
  refine (sum_last_256x64x128 _ reduces_S256x64x128_S256x64 (.inl rfl) rfl i q).trans ?_
  refine Finset.sum_congr rfl fun d _ => ?_
  refine congrArg FloatOps.absf (congrArg₂ (· - ·) ?_ ?_)
  · exact (broadcastTo_a1b_acb_apply _ broadcasts_S256x1x128_S256x64x128 i q d).trans
      (shapeCast_ab_a1b_apply xb shapeCasts_S256x128_S256x1x128 i (0 : Fin 1) d)
  · exact (broadcastTo_1cb_acb_apply _ broadcasts_S1x64x128_S256x64x128 i q d).trans
      (shapeCast_ab_1ab_apply yb shapeCasts_S64x128_S1x64x128 (0 : Fin 1) q d)

end Cert.KernelIdeal.Tiles

end
-- ==== Proof.LibEReal.lean ====
/-
  Facts about the extended reals as floats read them at the ideal instance: two bit patterns as the numbers they denote;
  the coercion of a finite real sum; scaling by the reciprocal square root of a positive real as division by its square
  root; a positive sum of squares of reals as a positive real; the Gram identity Σu² + Σv² − 2Σuv = Σ(u − v)² under the
  square root with its clamp at zero; a comparison's word as the order relation; and an extended real of finite absolute
  value as a real.
-/
import Idealize.ShloMosaic.PureOps.Ideal.Laws

noncomputable section

namespace Cert.Dist

open Idealize.ShloMosaic
open scoped BigOperators

/-- The pattern of 2.0 denotes the real 2. -/
theorem two_eq : Ideal.ofBits .f32 0x40000000#32 = ((2 : ℝ) : EReal) := by
  simp [Ideal.ofBits, Ideal.ieee, -EReal.coe_mul]; norm_num

/-- The pattern of +inf denotes the top element. -/
theorem inf_eq : Ideal.ofBits .f32 0x7F800000#32 = (⊤ : EReal) := by
  simp [Ideal.ofBits, Ideal.ieee]

/-- The coercion of a finite real sum is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Scaling by the reciprocal square root of a positive real is dividing by its square root. -/
theorem mul_rsqrt_eq_div_sqrt (a : EReal) {r : ℝ} (hr : 0 < r) :
    a * Ideal.rsqrt (r : EReal) = Ideal.div a (Ideal.sqrt (r : EReal)) := by
  have h1 : Ideal.rsqrt (r : EReal) = (((Real.sqrt r)⁻¹ : ℝ) : EReal) := by
    rw [Ideal.rsqrt_coe, if_neg (not_lt.mpr hr.le), if_neg hr.ne']
  have h2 : Ideal.sqrt (r : EReal) = ((Real.sqrt r : ℝ) : EReal) := by
    rw [Ideal.sqrt_coe, if_neg (not_lt.mpr hr.le)]
  have hs : Real.sqrt r ≠ 0 := (Real.sqrt_pos.mpr hr).ne'
  rw [h1, h2, Ideal.div_coe hs, one_div]

/-- A sum of squares of reals that is positive as an extended real is a positive real. -/
theorem sumsq_pos {n : ℕ} (u : Fin n → ℝ) (h : (0 : EReal) < ∑ k : Fin n, (u k : EReal) * (u k : EReal)) :
    ∃ r : ℝ, 0 < r ∧ (∑ k : Fin n, (u k : EReal) * (u k : EReal)) = (r : EReal) := by
  refine ⟨∑ k : Fin n, u k * u k, ?_, ?_⟩
  · have e : (∑ k : Fin n, (u k : EReal) * (u k : EReal)) = ((∑ k : Fin n, u k * u k : ℝ) : EReal) := by
      rw [coe_sum]; exact Finset.sum_congr rfl fun k _ => (EReal.coe_mul _ _).symm
    rw [e] at h
    exact_mod_cast h
  · rw [coe_sum]; exact Finset.sum_congr rfl fun k _ => (EReal.coe_mul _ _).symm

/-- The Gram identity on real rows, read on the extended reals: the clamped expression under the kernel's square root
    is the sum of squared differences under the reference's. -/
theorem gram {n : ℕ} (u v : Fin n → ℝ) :
    Ideal.sqrt (max (((∑ k : Fin n, (u k : EReal) * (u k : EReal)) + (∑ k : Fin n, (v k : EReal) * (v k : EReal)))
        - ((2 : ℝ) : EReal) * (∑ k : Fin n, (u k : EReal) * (v k : EReal))) 0)
      = Ideal.sqrt (0 + ∑ k : Fin n, ((u k : EReal) - (v k : EReal)) * ((u k : EReal) - (v k : EReal))) := by
  have e1 : (∑ k : Fin n, (u k : EReal) * (u k : EReal)) = ((∑ k : Fin n, u k * u k : ℝ) : EReal) := by
    rw [coe_sum]; exact Finset.sum_congr rfl fun k _ => (EReal.coe_mul _ _).symm
  have e2 : (∑ k : Fin n, (v k : EReal) * (v k : EReal)) = ((∑ k : Fin n, v k * v k : ℝ) : EReal) := by
    rw [coe_sum]; exact Finset.sum_congr rfl fun k _ => (EReal.coe_mul _ _).symm
  have e3 : (∑ k : Fin n, (u k : EReal) * (v k : EReal)) = ((∑ k : Fin n, u k * v k : ℝ) : EReal) := by
    rw [coe_sum]; exact Finset.sum_congr rfl fun k _ => (EReal.coe_mul _ _).symm
  have e4 : (∑ k : Fin n, ((u k : EReal) - (v k : EReal)) * ((u k : EReal) - (v k : EReal)))
      = ((∑ k : Fin n, (u k - v k) * (u k - v k) : ℝ) : EReal) := by
    rw [coe_sum]; exact Finset.sum_congr rfl fun k _ => by rw [EReal.coe_mul, EReal.coe_sub]
  have key : (∑ k : Fin n, u k * u k) + (∑ k : Fin n, v k * v k) - 2 * (∑ k : Fin n, u k * v k)
      = ∑ k : Fin n, (u k - v k) * (u k - v k) := by
    rw [Finset.mul_sum, ← Finset.sum_add_distrib, ← Finset.sum_sub_distrib]
    exact Finset.sum_congr rfl fun k _ => by ring
  have hnn : (0 : ℝ) ≤ ∑ k : Fin n, (u k - v k) * (u k - v k) :=
    Finset.sum_nonneg fun k _ => mul_self_nonneg _
  rw [e1, e2, e3, e4, ← EReal.coe_add, ← EReal.coe_mul, ← EReal.coe_sub, key, zero_add,
    max_eq_left (by exact_mod_cast hnn)]

/-- The word of an ordered "less than" is 1 exactly when the left value is below the right. -/
theorem cmp_olt_iff (a b : EReal) : Ideal.cmp .olt a b = 1#1 ↔ a < b := by
  unfold Ideal.cmp; by_cases h : a < b <;> simp [h]

/-- The word of an ordered "greater than" is 1 exactly when the right value is below the left. -/
theorem cmp_ogt_iff (a b : EReal) : Ideal.cmp .ogt a b = 1#1 ↔ b < a := by
  unfold Ideal.cmp; by_cases h : b < a <;> simp [h]

/-- An extended real whose absolute value is below +∞ is a real. -/
theorem real_of_abs_lt_top (a : EReal) (h : max a (-a) < ⊤) : ∃ r : ℝ, a = (r : EReal) := by
  induction a using EReal.rec with
  | bot => simp at h
  | coe r => exact ⟨r, rfl⟩
  | top => simp at h

end Cert.Dist

end
-- ==== Proof.DistMath.lean ====
/-
  The three distances between two rows of 128 extended reals, each in the kernel's spelling and in the reference's, and
  that the two spellings agree:

  * cosine — for real rows with POSITIVE sums of squares, scaling by rsqrt(Σu²) is dividing by √(Σu²). (At a zero row
    the two differ — rsqrt 0 = +∞ and 0·(+∞) = 0, while 0 / √0 = 0/0 is the junk value −∞ — which is why the rows are
    asked to be nonzero.)
  * L1 — the same sum, the reference's taken from the zero word.
  * L2 — for REAL rows Σu² + Σv² − 2·Σuv = Σ(u − v)² ≥ 0, so clamping at 0 changes nothing. The identity uses
    distributivity, which fails at infinities: this is where finiteness of the inputs is used.

  And the 4 × 512 × 512 array a row-level distance makes of the two argument arrays.
-/
import proofs.«166156_j11759620456454_2_alg».proof.Proof.LibEReal
import Idealize.ShloMosaic.Lib.ValueIdx

noncomputable section

namespace Cert.Dist

open Idealize.ShloMosaic
open scoped BigOperators

/-! ## The three distances between two rows, as the kernel spells them and as the reference does -/

section Rows
variable {n : ℕ}

/-- Cosine, the kernel's way: each row scaled by the reciprocal square root of its sum of squares, then multiplied out. -/
def cosRows (u v : Fin n → EReal) : EReal :=
  ∑ k : Fin n, (u k * Ideal.rsqrt (∑ d : Fin n, u d * u d)) * (v k * Ideal.rsqrt (∑ d : Fin n, v d * v d))

/-- Cosine, the reference's way: each row divided by its norm (the sum taken from the zero word), then multiplied out. -/
def cosRowsRef (u v : Fin n → EReal) : EReal :=
  ∑ k : Fin n, Ideal.div (u k) (Ideal.sqrt (Ideal.ofBits .f32 0x00000000#32 + ∑ d : Fin n, u d * u d))
    * Ideal.div (v k) (Ideal.sqrt (Ideal.ofBits .f32 0x00000000#32 + ∑ d : Fin n, v d * v d))

/-- L1: the sum of absolute differences. -/
def l1Rows (u v : Fin n → EReal) : EReal := ∑ d : Fin n, FloatOps.absf (F := Ideal) (φ := .f32) (u d - v d)

/-- The reference's, from the zero word. -/
def l1RowsRef (u v : Fin n → EReal) : EReal :=
  Ideal.ofBits .f32 0x00000000#32 + ∑ d : Fin n, FloatOps.absf (F := Ideal) (φ := .f32) (u d - v d)

/-- L2, the kernel's way: the square root of the Gram expression clamped at zero. -/
def l2Rows (u v : Fin n → EReal) : EReal :=
  Ideal.sqrt (max (((∑ d : Fin n, u d * u d) + (∑ d : Fin n, v d * v d))
    - Ideal.ofBits .f32 0x40000000#32 * (∑ k : Fin n, u k * v k)) (Ideal.ofBits .f32 0x00000000#32))

/-- L2, the reference's way: the square root of the sum of squared differences. -/
def l2RowsRef (u v : Fin n → EReal) : EReal :=
  Ideal.sqrt (Ideal.ofBits .f32 0x00000000#32 + ∑ k : Fin n, (u k - v k) * (u k - v k))

/-- For real rows with positive sums of squares the two cosines agree. -/
theorem cosRows_eq (u v : Fin n → ℝ) (hu : (0 : EReal) < ∑ k : Fin n, (u k : EReal) * (u k : EReal))
    (hv : (0 : EReal) < ∑ k : Fin n, (v k : EReal) * (v k : EReal)) :
    cosRows (fun k => (u k : EReal)) (fun k => (v k : EReal)) = cosRowsRef (fun k => (u k : EReal)) (fun k => (v k : EReal)) := by
  obtain ⟨r, hr, er⟩ := sumsq_pos u hu
  obtain ⟨s, hs, es⟩ := sumsq_pos v hv
  unfold cosRows cosRowsRef
  rw [Ideal.ofBits_zero_f32, zero_add, zero_add, er, es]
  exact Finset.sum_congr rfl fun k _ => by rw [mul_rsqrt_eq_div_sqrt _ hr, mul_rsqrt_eq_div_sqrt _ hs]

/-- The two L1 distances agree on any rows. -/
theorem l1Rows_eq (u v : Fin n → EReal) : l1Rows u v = l1RowsRef u v := by
  unfold l1Rows l1RowsRef
  rw [Ideal.ofBits_zero_f32, zero_add]

/-- For real rows the two L2 distances agree. -/
theorem l2Rows_eq (u v : Fin n → ℝ) :
    l2Rows (fun k => (u k : EReal)) (fun k => (v k : EReal)) = l2RowsRef (fun k => (u k : EReal)) (fun k => (v k : EReal)) := by
  unfold l2Rows l2RowsRef
  rw [two_eq, Ideal.ofBits_zero_f32]
  exact gram u v

end Rows

/-! ## The whole arrays -/

/-- The 4 × 512 × 512 array of a row-level distance f: entry (b, r, q) is f of row (b, r) of x and row q of y. -/
def pairwise (f : (Fin 128 → EReal) → (Fin 128 → EReal) → EReal)
    (x : (⟨3, ![4, 512, 128]⟩ : Shape).Idx → EReal) (y : (⟨2, ![512, 128]⟩ : Shape).Idx → EReal) :
    (⟨3, ![4, 512, 512]⟩ : Shape).Idx → EReal := fun i =>
  f (fun d => x (ValueIdx.ix3 (⟨(i 0).val, (i 0).isLt⟩ : Fin 4) (⟨(i 1).val, (i 1).isLt⟩ : Fin 512) d))
    (fun d => y (ValueIdx.ix2 (⟨(i 2).val, (i 2).isLt⟩ : Fin 512) d))

end Cert.Dist

end
-- ==== Proof.KernelIdealArrays.lean ====
/-
  From the tiles to the arrays, at the ideal instance.

  A tile's entry (i, j) is a distance between row i of the x block and row j of the y block. The blocks of grid point
  (b, n, mm) are rows 256·n … of batch b of x and rows 256·mm … of y, and the point writes its tile back at rows 256·n …,
  columns 256·mm … of batch b of the result. So what every point writes back is a block of ONE function of the two
  argument arrays — entry (b, r, q) the distance between row (b, r) of x and row q of y — and since the sixteen blocks
  fill the 4 × 512 × 512 array, each result array ends at that function.
-/
import proofs.«166156_j11759620456454_2_alg».proof.Proof.KernelIdealTileAt
import proofs.«166156_j11759620456454_2_alg».proof.Proof.DistMath
import Idealize.ShloMosaic.Lib.Pipeline.Value

set_option maxRecDepth 16384

noncomputable section

namespace Cert.KernelIdeal.Tiles

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Dist
open scoped BigOperators

theorem hz3 : (![0, 0, 0] : Fin 3 → Nat) = fun _ => 0 := funext fun a => by fin_cases a <;> rfl
theorem hz2 : (![0, 0] : Fin 2 → Nat) = fun _ => 0 := funext fun a => by fin_cases a <;> rfl

/-! ## A tile's entry as a distance between two rows -/

/-- The cosine tile at (i, j): the cosine of row i of the x block and row j of the y block. -/
theorem cosTile_at (x : Vec Ideal S1x256x128 .f32) (y : Vec Ideal S256x128 .f32) (i j : Fin 256) :
    cosTile (F := Ideal) x y (ix3 (0 : Fin 1) i j) = cosRows (fun d => x (ix3 (0 : Fin 1) i d)) (fun d => y (ix2 j d)) := by
  unfold cosTile
  rw [View.canon_unit_zero hz3]
  simp only [View.ld_unit_zero (S := S1x256x128) hz3, View.ld_unit_zero (S := S256x128) hz2]
  exact cos_at x y i j

/-- The L2 tile at (i, j). -/
theorem l2Tile_at (x : Vec Ideal S1x256x128 .f32) (y : Vec Ideal S256x128 .f32) (i j : Fin 256) :
    l2Tile (F := Ideal) x y (ix3 (0 : Fin 1) i j) = l2Rows (fun d => x (ix3 (0 : Fin 1) i d)) (fun d => y (ix2 j d)) := by
  unfold l2Tile
  rw [View.canon_unit_zero hz3]
  simp only [View.ld_unit_zero (S := S1x256x128) hz3, View.ld_unit_zero (S := S256x128) hz2]
  exact l2_at x y i j

/-- One band's sums, against the rows of y that a 64-row slice ys takes from row o on. -/
theorem band_entry (o : ℕ) (x : Vec Ideal S1x256x128 .f32) (y : Vec Ideal S256x128 .f32) (ys : FVec Ideal S64x128 .f32)
    (hys : ∀ (q : Fin 64) (d : Fin 128) (k : Fin 256), k.val = o + q.val → ys (ix2 q d) = y (ix2 k d))
    (i : Fin 256) (q : Fin 64) (k : Fin 256) (hk : k.val = o + q.val) :
    multiReduction (F := Ideal) .add [2] S256x64
        (absf (subf (broadcastTo S256x64x128 (shapeCast S256x1x128 (k0_pay1 x) shapeCasts_S256x128_S256x1x128) broadcasts_S256x1x128_S256x64x128)
          (broadcastTo S256x64x128 (shapeCast S1x64x128 ys shapeCasts_S64x128_S1x64x128) broadcasts_S1x64x128_S256x64x128)))
        0x00000000#32 reduces_S256x64x128_S256x64 (.inl rfl) rfl (ix2 i q)
      = l1Rows (fun d => x (ix3 (0 : Fin 1) i d)) (fun d => y (ix2 k d)) :=
  (l1_band_at (k0_pay1 x) ys i q).trans (Finset.sum_congr rfl fun d _ => by rw [x_at, hys q d k hk])

/-- The four band payloads at an entry. -/
theorem pay6_at (x : Vec Ideal S1x256x128 .f32) (y : Vec Ideal S256x128 .f32) (u : Fin 1) (i : Fin 256) (q : Fin 64) (k : Fin 256)
    (hk : k.val = 0 + q.val) :
    k0_pay6 (F := Ideal) x y (ix3 u i q) = l1Rows (fun d => x (ix3 (0 : Fin 1) i d)) (fun d => y (ix2 k d)) := by
  unfold k0_pay6
  refine (shapeCast_ab_1ab_apply _ shapeCasts_S256x64_S1x256x64 u i q).trans ?_
  exact band_entry 0 x y _ (fun q d k hk => slice2_axis0_apply 0 y slices_S256x128_o0_0_S64x128 q d k hk) i q k hk

theorem pay8_at (x : Vec Ideal S1x256x128 .f32) (y : Vec Ideal S256x128 .f32) (u : Fin 1) (i : Fin 256) (q : Fin 64) (k : Fin 256)
    (hk : k.val = 64 + q.val) :
    k0_pay8 (F := Ideal) (k0_pay1 x) (k0_pay7 y) (ix3 u i q) = l1Rows (fun d => x (ix3 (0 : Fin 1) i d)) (fun d => y (ix2 k d)) := by
  unfold k0_pay8
  refine (shapeCast_ab_1ab_apply _ shapeCasts_S256x64_S1x256x64 u i q).trans ?_
  exact band_entry 64 x y _ (fun q d k hk => by unfold k0_pay7; exact slice2_axis0_apply 64 y slices_S256x128_o64_0_S64x128 q d k hk) i q k hk

theorem pay9_at (x : Vec Ideal S1x256x128 .f32) (y : Vec Ideal S256x128 .f32) (u : Fin 1) (i : Fin 256) (q : Fin 64) (k : Fin 256)
    (hk : k.val = 128 + q.val) :
    k0_pay9 (F := Ideal) (k0_pay1 x) y (ix3 u i q) = l1Rows (fun d => x (ix3 (0 : Fin 1) i d)) (fun d => y (ix2 k d)) := by
  unfold k0_pay9
  refine (shapeCast_ab_1ab_apply _ shapeCasts_S256x64_S1x256x64 u i q).trans ?_
  exact band_entry 128 x y _ (fun q d k hk => slice2_axis0_apply 128 y slices_S256x128_o128_0_S64x128 q d k hk) i q k hk

theorem pay10_at (x : Vec Ideal S1x256x128 .f32) (y : Vec Ideal S256x128 .f32) (u : Fin 1) (i : Fin 256) (q : Fin 64) (k : Fin 256)
    (hk : k.val = 192 + q.val) :
    k0_pay10 (F := Ideal) (k0_pay1 x) y (ix3 u i q) = l1Rows (fun d => x (ix3 (0 : Fin 1) i d)) (fun d => y (ix2 k d)) := by
  unfold k0_pay10
  refine (shapeCast_ab_1ab_apply _ shapeCasts_S256x64_S1x256x64 u i q).trans ?_
  exact band_entry 192 x y _ (fun q d k hk => slice2_axis0_apply 192 y slices_S256x128_o192_0_S64x128 q d k hk) i q k hk

/-- The L1 tile as one function of its index: the four bands are blocks of it. -/
def l1Whole (x : Vec Ideal S1x256x128 .f32) (y : Vec Ideal S256x128 .f32) : S1x256x256.Idx → EReal := fun idx =>
  l1Rows (fun d => x (ix3 (0 : Fin 1) (⟨(idx 1).val, (idx 1).isLt⟩ : Fin 256) d)) (fun d => y (ix2 (⟨(idx 2).val, (idx 2).isLt⟩ : Fin 256) d))

/-- A band's payload is the block of that function its rectangle names: the band from column o puts its entry
    (i, q) at (i, o + q). -/
theorem band_block (o : ℕ) (x : Vec Ideal S1x256x128 .f32) (y : Vec Ideal S256x128 .f32) (w : FVec Ideal S1x256x64 .f32)
    (hw : ∀ (u : Fin 1) (i : Fin 256) (q : Fin 64) (k : Fin 256), k.val = o + q.val →
      w (ix3 u i q) = l1Rows (fun d => x (ix3 (0 : Fin 1) i d)) (fun d => y (ix2 k d)))
    (z : S1x256x64.Idx) (e : S1x256x256.Idx) (he : ∀ a : Fin 3, (e a).val = ![0, 0, o] a + 1 * (z a).val) :
    w z = l1Whole x y e := by
  obtain ⟨u, i, q, rfl⟩ : ∃ (u : Fin 1) (i : Fin 256) (q : Fin 64), z = ix3 u i q := ⟨z 0, z 1, z 2, eq_ix3 z⟩
  have h1 : (e 1).val = i.val := by have := he 1; simpa using this
  have h2 : (e 2).val = o + q.val := by have := he 2; simpa using this
  refine (hw u i q ⟨(e 2).val, (e 2).isLt⟩ h2).trans ?_
  unfold l1Whole
  refine congrArg₂ l1Rows (funext fun d => congrArg x ?_) rfl
  exact congrArg (fun r => ix3 (0 : Fin 1) r d) (Fin.ext h1.symm)

/-- The L1 tile at (i, j). -/
theorem l1Tile_at (x : Vec Ideal S1x256x128 .f32) (y : Vec Ideal S256x128 .f32) (i j : Fin 256) :
    l1Tile (F := Ideal) x y (ix3 (0 : Fin 1) i j) = l1Rows (fun d => x (ix3 (0 : Fin 1) i d)) (fun d => y (ix2 j d)) := by
  unfold l1Tile
  simp only [View.ld_unit_zero (S := S1x256x128) hz3, View.ld_unit_zero (S := S256x128) hz2]
  refine (View.canon_apply_of_pieces (l1Whole x y) _ ?_ (ix3 (0 : Fin 1) i j) (cover_bands _ _ _ _ _)).trans rfl
  intro p hp z
  simp only [List.mem_cons, List.mem_nil_iff, or_false] at hp
  rcases hp with rfl | rfl | rfl | rfl
  · exact band_block 192 x y _ (pay10_at x y) z _ (fun a => rfl)
  · exact band_block 128 x y _ (pay9_at x y) z _ (fun a => rfl)
  · exact band_block 64 x y _ (pay8_at x y) z _ (fun a => rfl)
  · exact band_block 0 x y _ (pay6_at x y) z _ (fun a => rfl)

/-! ## From the tiles to the arrays -/

variable (m : (ℓ : Loc nD τ sig) → Buf (Elt Ideal) ℓ)

/-- The printed index maps, decided over the grid: the x block moves with the result block's batch and row block, the y
    block with its column block, the three result windows together; and the block indices stay in range. -/
theorem idx_facts : ∀ t : Fin cfg0.N,
    win0_0.index t (0 : Fin 3) = win0_2.index t (0 : Fin 3) ∧ win0_0.index t (1 : Fin 3) = win0_2.index t (1 : Fin 3)
    ∧ win0_0.index t (2 : Fin 3) = 0 ∧ win0_1.index t (0 : Fin 2) = win0_2.index t (2 : Fin 3) ∧ win0_1.index t (1 : Fin 2) = 0
    ∧ win0_3.index t (0 : Fin 3) = win0_2.index t (0 : Fin 3) ∧ win0_3.index t (1 : Fin 3) = win0_2.index t (1 : Fin 3)
    ∧ win0_3.index t (2 : Fin 3) = win0_2.index t (2 : Fin 3)
    ∧ win0_4.index t (0 : Fin 3) = win0_2.index t (0 : Fin 3) ∧ win0_4.index t (1 : Fin 3) = win0_2.index t (1 : Fin 3)
    ∧ win0_4.index t (2 : Fin 3) = win0_2.index t (2 : Fin 3)
    ∧ win0_2.index t (0 : Fin 3) ≤ 3 ∧ win0_2.index t (1 : Fin 3) ≤ 1 ∧ win0_2.index t (2 : Fin 3) ≤ 1 :=
  (by decide +kernel : ∀ t : Fin grid0.N, _)

/-- Every block of the result is some point's. -/
theorem idx_onto : ∀ (q0 : Fin 4) (q1 : Fin 2) (q2 : Fin 2), ∃ t : Fin cfg0.N, win0_2.index t = ![q0.val, q1.val, q2.val] :=
  (by decide +kernel : ∀ (q0 : Fin 4) (q1 : Fin 2) (q2 : Fin 2), ∃ t : Fin grid0.N, win0_2.index t = ![q0.val, q1.val, q2.val])

/-- WHAT POINT t WRITES BACK into the cos array is block t of the array of cos distances of the argument arrays. -/
theorem flushed_cos (c : Dev nD) (t : Fin cfg0.N) :
    (dats m 0 c).flushed 2 t = ((cfg0.win 2).blk t).view.read (Elt Ideal) (pairwise cosRows (arrIn m c main_arg0) (arrIn m c main_arg1)) := by
  show (cfg0.win 2).cut (grid0.coords t) ((dats m 0 c).after 2 t) = _
  rw [after_cos]
  obtain ⟨e0, e1, e2, e3, e4, e5, e6, e7, e8, e9, e10, b0, b1, b2⟩ := idx_facts t
  funext j
  obtain ⟨u, i, jj, rfl⟩ : ∃ (u : Fin 1) (i : Fin 256) (jj : Fin 256), j = ix3 u i jj := ⟨j 0, j 1, j 2, eq_ix3 j⟩
  obtain rfl : u = 0 := Subsingleton.elim _ _
  show cosTile (blockAt m c 0 t) (blockAt m c 1 t) (ix3 (0 : Fin 1) i jj)
    = pairwise cosRows (arrIn m c main_arg0) (arrIn m c main_arg1) (((cfg0.win 2).blk t).view.emb (ix3 (0 : Fin 1) i jj))
  refine (cosTile_at (blockAt m c 0 t) (blockAt m c 1 t) i jj).trans ?_
  unfold pairwise
  refine congrArg₂ cosRows (funext fun d => ?_) (funext fun d => ?_)
  · show arrIn m c main_arg0 (((cfg0.win 0).blk t).view.emb (ix3 (0 : Fin 1) i d)) = _
    refine congrArg (arrIn m c main_arg0) (funext fun a => Fin.ext ?_)
    match a with
    | ⟨0, _⟩ => show win0_0.index t (0 : Fin 3) * 1 + 1 * 0 = win0_2.index t (0 : Fin 3) * 1 + 1 * 0; omega
    | ⟨1, _⟩ => show win0_0.index t (1 : Fin 3) * 256 + 1 * i.val = win0_2.index t (1 : Fin 3) * 256 + 1 * i.val; omega
    | ⟨2, _⟩ => show win0_0.index t (2 : Fin 3) * 128 + 1 * d.val = d.val; omega
  · show arrIn m c main_arg1 (((cfg0.win 1).blk t).view.emb (ix2 jj d)) = _
    refine congrArg (arrIn m c main_arg1) (funext fun a => Fin.ext ?_)
    match a with
    | ⟨0, _⟩ => show win0_1.index t (0 : Fin 2) * 256 + 1 * jj.val = win0_2.index t (2 : Fin 3) * 256 + 1 * jj.val; omega
    | ⟨1, _⟩ => show win0_1.index t (1 : Fin 2) * 128 + 1 * d.val = d.val; omega

/-- An index of the cos array is in point t's block iff each coordinate is in the block's range. -/
theorem mem_blk_cos (t : Fin cfg0.N) (i : S4x512x512.Idx) :
    i ∈ ((cfg0.win 2).blk t).view.set ↔ ∀ a : Fin 3, win0_2.index t a * S1x256x256.size a ≤ (i a).val ∧ (i a).val < win0_2.index t a * S1x256x256.size a + S1x256x256.size a := by
  show i ∈ ((View.whole main_v0_0).slice (win0_2.rect t)).set ↔ _
  rw [View.set_slice_whole, Rect.mem_set_unit]
  exact Iff.rfl

/-- Every index of the cos array is in some point's block: the point at batch i₀, row block i₁ / 256, column block i₂ / 256. -/
theorem cover_cos (i : S4x512x512.Idx) : ∃ t : Fin cfg0.N, (cfg0.win 2).flush t = true ∧ i ∈ ((cfg0.win 2).blk t).view.set := by
  have hi0 : (i 0).val < 4 := (i 0).isLt
  have hi1 : (i 1).val < 512 := (i 1).isLt
  have hi2 : (i 2).val < 512 := (i 2).isLt
  obtain ⟨t, ht⟩ := idx_onto ⟨(i 0).val, by omega⟩ ⟨(i 1).val / 256, by omega⟩ ⟨(i 2).val / 256, by omega⟩
  obtain ⟨e0, e1, e2, e3, e4, e5, e6, e7, e8, e9, e10, b0, b1, b2⟩ := idx_facts t
  have q0 : win0_2.index t (0 : Fin 3) = (i 0).val := congrFun ht 0
  have q1 : win0_2.index t (1 : Fin 3) = (i 1).val / 256 := congrFun ht 1
  have q2 : win0_2.index t (2 : Fin 3) = (i 2).val / 256 := congrFun ht 2
  refine ⟨t, flush0_2 t, ?_⟩
  rw [mem_blk_cos]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 256 ≤ (i 2).val ∧ (i 2).val < win0_2.index t (2 : Fin 3) * 256 + 256; omega

/-- THE cos ARRAY after the run. -/
theorem final_cos (c : Dev nD) :
    (dats m 0 c).arrAt 2 cfg0.N = pairwise cosRows (arrIn m c main_arg0) (arrIn m c main_arg1) :=
  (dats m 0 c).arrAt_eq_of_cover 2 _ (fun t _ => flushed_cos m c t) cover_cos

/-- WHAT POINT t WRITES BACK into the l1 array is block t of the array of l1 distances of the argument arrays. -/
theorem flushed_l1 (c : Dev nD) (t : Fin cfg0.N) :
    (dats m 0 c).flushed 3 t = ((cfg0.win 3).blk t).view.read (Elt Ideal) (pairwise l1Rows (arrIn m c main_arg0) (arrIn m c main_arg1)) := by
  show (cfg0.win 3).cut (grid0.coords t) ((dats m 0 c).after 3 t) = _
  rw [after_l1]
  obtain ⟨e0, e1, e2, e3, e4, e5, e6, e7, e8, e9, e10, b0, b1, b2⟩ := idx_facts t
  funext j
  obtain ⟨u, i, jj, rfl⟩ : ∃ (u : Fin 1) (i : Fin 256) (jj : Fin 256), j = ix3 u i jj := ⟨j 0, j 1, j 2, eq_ix3 j⟩
  obtain rfl : u = 0 := Subsingleton.elim _ _
  show l1Tile (blockAt m c 0 t) (blockAt m c 1 t) (ix3 (0 : Fin 1) i jj)
    = pairwise l1Rows (arrIn m c main_arg0) (arrIn m c main_arg1) (((cfg0.win 3).blk t).view.emb (ix3 (0 : Fin 1) i jj))
  refine (l1Tile_at (blockAt m c 0 t) (blockAt m c 1 t) i jj).trans ?_
  unfold pairwise
  refine congrArg₂ l1Rows (funext fun d => ?_) (funext fun d => ?_)
  · show arrIn m c main_arg0 (((cfg0.win 0).blk t).view.emb (ix3 (0 : Fin 1) i d)) = _
    refine congrArg (arrIn m c main_arg0) (funext fun a => Fin.ext ?_)
    match a with
    | ⟨0, _⟩ => show win0_0.index t (0 : Fin 3) * 1 + 1 * 0 = win0_3.index t (0 : Fin 3) * 1 + 1 * 0; omega
    | ⟨1, _⟩ => show win0_0.index t (1 : Fin 3) * 256 + 1 * i.val = win0_3.index t (1 : Fin 3) * 256 + 1 * i.val; omega
    | ⟨2, _⟩ => show win0_0.index t (2 : Fin 3) * 128 + 1 * d.val = d.val; omega
  · show arrIn m c main_arg1 (((cfg0.win 1).blk t).view.emb (ix2 jj d)) = _
    refine congrArg (arrIn m c main_arg1) (funext fun a => Fin.ext ?_)
    match a with
    | ⟨0, _⟩ => show win0_1.index t (0 : Fin 2) * 256 + 1 * jj.val = win0_3.index t (2 : Fin 3) * 256 + 1 * jj.val; omega
    | ⟨1, _⟩ => show win0_1.index t (1 : Fin 2) * 128 + 1 * d.val = d.val; omega

/-- An index of the l1 array is in point t's block iff each coordinate is in the block's range. -/
theorem mem_blk_l1 (t : Fin cfg0.N) (i : S4x512x512.Idx) :
    i ∈ ((cfg0.win 3).blk t).view.set ↔ ∀ a : Fin 3, win0_3.index t a * S1x256x256.size a ≤ (i a).val ∧ (i a).val < win0_3.index t a * S1x256x256.size a + S1x256x256.size a := by
  show i ∈ ((View.whole main_v0_1).slice (win0_3.rect t)).set ↔ _
  rw [View.set_slice_whole, Rect.mem_set_unit]
  exact Iff.rfl

/-- Every index of the l1 array is in some point's block: the point at batch i₀, row block i₁ / 256, column block i₂ / 256. -/
theorem cover_l1 (i : S4x512x512.Idx) : ∃ t : Fin cfg0.N, (cfg0.win 3).flush t = true ∧ i ∈ ((cfg0.win 3).blk t).view.set := by
  have hi0 : (i 0).val < 4 := (i 0).isLt
  have hi1 : (i 1).val < 512 := (i 1).isLt
  have hi2 : (i 2).val < 512 := (i 2).isLt
  obtain ⟨t, ht⟩ := idx_onto ⟨(i 0).val, by omega⟩ ⟨(i 1).val / 256, by omega⟩ ⟨(i 2).val / 256, by omega⟩
  obtain ⟨e0, e1, e2, e3, e4, e5, e6, e7, e8, e9, e10, b0, b1, b2⟩ := idx_facts t
  have q0 : win0_2.index t (0 : Fin 3) = (i 0).val := congrFun ht 0
  have q1 : win0_2.index t (1 : Fin 3) = (i 1).val / 256 := congrFun ht 1
  have q2 : win0_2.index t (2 : Fin 3) = (i 2).val / 256 := congrFun ht 2
  refine ⟨t, flush0_3 t, ?_⟩
  rw [mem_blk_l1]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 256 ≤ (i 2).val ∧ (i 2).val < win0_3.index t (2 : Fin 3) * 256 + 256; omega

/-- THE l1 ARRAY after the run. -/
theorem final_l1 (c : Dev nD) :
    (dats m 0 c).arrAt 3 cfg0.N = pairwise l1Rows (arrIn m c main_arg0) (arrIn m c main_arg1) :=
  (dats m 0 c).arrAt_eq_of_cover 3 _ (fun t _ => flushed_l1 m c t) cover_l1

/-- WHAT POINT t WRITES BACK into the l2 array is block t of the array of l2 distances of the argument arrays. -/
theorem flushed_l2 (c : Dev nD) (t : Fin cfg0.N) :
    (dats m 0 c).flushed 4 t = ((cfg0.win 4).blk t).view.read (Elt Ideal) (pairwise l2Rows (arrIn m c main_arg0) (arrIn m c main_arg1)) := by
  show (cfg0.win 4).cut (grid0.coords t) ((dats m 0 c).after 4 t) = _
  rw [after_l2]
  obtain ⟨e0, e1, e2, e3, e4, e5, e6, e7, e8, e9, e10, b0, b1, b2⟩ := idx_facts t
  funext j
  obtain ⟨u, i, jj, rfl⟩ : ∃ (u : Fin 1) (i : Fin 256) (jj : Fin 256), j = ix3 u i jj := ⟨j 0, j 1, j 2, eq_ix3 j⟩
  obtain rfl : u = 0 := Subsingleton.elim _ _
  show l2Tile (blockAt m c 0 t) (blockAt m c 1 t) (ix3 (0 : Fin 1) i jj)
    = pairwise l2Rows (arrIn m c main_arg0) (arrIn m c main_arg1) (((cfg0.win 4).blk t).view.emb (ix3 (0 : Fin 1) i jj))
  refine (l2Tile_at (blockAt m c 0 t) (blockAt m c 1 t) i jj).trans ?_
  unfold pairwise
  refine congrArg₂ l2Rows (funext fun d => ?_) (funext fun d => ?_)
  · show arrIn m c main_arg0 (((cfg0.win 0).blk t).view.emb (ix3 (0 : Fin 1) i d)) = _
    refine congrArg (arrIn m c main_arg0) (funext fun a => Fin.ext ?_)
    match a with
    | ⟨0, _⟩ => show win0_0.index t (0 : Fin 3) * 1 + 1 * 0 = win0_4.index t (0 : Fin 3) * 1 + 1 * 0; omega
    | ⟨1, _⟩ => show win0_0.index t (1 : Fin 3) * 256 + 1 * i.val = win0_4.index t (1 : Fin 3) * 256 + 1 * i.val; omega
    | ⟨2, _⟩ => show win0_0.index t (2 : Fin 3) * 128 + 1 * d.val = d.val; omega
  · show arrIn m c main_arg1 (((cfg0.win 1).blk t).view.emb (ix2 jj d)) = _
    refine congrArg (arrIn m c main_arg1) (funext fun a => Fin.ext ?_)
    match a with
    | ⟨0, _⟩ => show win0_1.index t (0 : Fin 2) * 256 + 1 * jj.val = win0_4.index t (2 : Fin 3) * 256 + 1 * jj.val; omega
    | ⟨1, _⟩ => show win0_1.index t (1 : Fin 2) * 128 + 1 * d.val = d.val; omega

/-- An index of the l2 array is in point t's block iff each coordinate is in the block's range. -/
theorem mem_blk_l2 (t : Fin cfg0.N) (i : S4x512x512.Idx) :
    i ∈ ((cfg0.win 4).blk t).view.set ↔ ∀ a : Fin 3, win0_4.index t a * S1x256x256.size a ≤ (i a).val ∧ (i a).val < win0_4.index t a * S1x256x256.size a + S1x256x256.size a := by
  show i ∈ ((View.whole main_v0_2).slice (win0_4.rect t)).set ↔ _
  rw [View.set_slice_whole, Rect.mem_set_unit]
  exact Iff.rfl

/-- Every index of the l2 array is in some point's block: the point at batch i₀, row block i₁ / 256, column block i₂ / 256. -/
theorem cover_l2 (i : S4x512x512.Idx) : ∃ t : Fin cfg0.N, (cfg0.win 4).flush t = true ∧ i ∈ ((cfg0.win 4).blk t).view.set := by
  have hi0 : (i 0).val < 4 := (i 0).isLt
  have hi1 : (i 1).val < 512 := (i 1).isLt
  have hi2 : (i 2).val < 512 := (i 2).isLt
  obtain ⟨t, ht⟩ := idx_onto ⟨(i 0).val, by omega⟩ ⟨(i 1).val / 256, by omega⟩ ⟨(i 2).val / 256, by omega⟩
  obtain ⟨e0, e1, e2, e3, e4, e5, e6, e7, e8, e9, e10, b0, b1, b2⟩ := idx_facts t
  have q0 : win0_2.index t (0 : Fin 3) = (i 0).val := congrFun ht 0
  have q1 : win0_2.index t (1 : Fin 3) = (i 1).val / 256 := congrFun ht 1
  have q2 : win0_2.index t (2 : Fin 3) = (i 2).val / 256 := congrFun ht 2
  refine ⟨t, flush0_4 t, ?_⟩
  rw [mem_blk_l2]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 256 ≤ (i 2).val ∧ (i 2).val < win0_4.index t (2 : Fin 3) * 256 + 256; omega

/-- THE l2 ARRAY after the run. -/
theorem final_l2 (c : Dev nD) :
    (dats m 0 c).arrAt 4 cfg0.N = pairwise l2Rows (arrIn m c main_arg0) (arrIn m c main_arg1) :=
  (dats m 0 c).arrAt_eq_of_cover 4 _ (fun t _ => flushed_l2 m c t) cover_l2

end Cert.KernelIdeal.Tiles

end
-- ==== Proof.KernelIdealValue.lean ====
/-
  The idealized kernel's result: after the region the four host lines give each of the three result arrays a last unit axis
  and join them along it, so the result array is the stack of the three arrays of distances of the argument arrays.
-/
import proofs.«166156_j11759620456454_2_alg».proof.Proof.KernelIdealArrays
import Idealize.ShloMosaic.Lib.StableHlo.Run

set_option maxRecDepth 16384

noncomputable section

namespace Cert.KernelIdeal.Tiles

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen Cert.Dist

variable (m : (ℓ : Loc nD τ sig) → Buf (Elt Ideal) ℓ) (ρ : Dev nD → PrngReg)

/-- Three 4 × 512 × 512 arrays stacked along a new last axis. -/
def stack (a b c : FVec Ideal S4x512x512 .f32) : FVec Ideal S4x512x512x3 .f32 :=
  concatenate S4x512x512x3 3
    [⟨S4x512x512x1, broadcastInDim S4x512x512x1 ![0, 1, 2] bcast_S4x512x512_S4x512x512x1_0_1_2 a⟩,
     ⟨S4x512x512x1, broadcastInDim S4x512x512x1 ![0, 1, 2] bcast_S4x512x512_S4x512x512x1_0_1_2 b⟩,
     ⟨S4x512x512x1, broadcastInDim S4x512x512x1 ![0, 1, 2] bcast_S4x512x512_S4x512x512x1_0_1_2 c⟩]
    concatenates_S4x512x512x1_S4x512x512x1_S4x512x512x1_S4x512x512x3_d3

/-- A three-operand host operation's result with each operand's contents at its own reference. -/
theorem nary3_result {Val : EltTy → Type} {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- What the host lines after the region leave in the result: the stack of the three arrays the region left. -/
theorem tail_eq (c : Dev nD) :
    Pipeline.afterTail₀ cfgs (dats m) 0 (memIn m) [hostOps1] c main_v4
      = stack ((dats m 0 c).arrAt 2 cfg0.N) ((dats m 0 c).arrAt 3 cfg0.N) ((dats m 0 c).arrAt 4 cfg0.N) := by
  have e2 : Pipeline.withArrays (cfgs 0).spec c (memIn m c) (fun w => (dats m 0 c).arrAt w (cfgs 0).N) (Proc.devRef .tc main_v0_0)
      = (dats m 0 c).arrAt 2 cfg0.N := Pipeline.withArrays_arr spec0 launch0.win.arr_inj c _ _ 2
  have e3 : Pipeline.withArrays (cfgs 0).spec c (memIn m c) (fun w => (dats m 0 c).arrAt w (cfgs 0).N) (Proc.devRef .tc main_v0_1)
      = (dats m 0 c).arrAt 3 cfg0.N := Pipeline.withArrays_arr spec0 launch0.win.arr_inj c _ _ 3
  have e4 : Pipeline.withArrays (cfgs 0).spec c (memIn m c) (fun w => (dats m 0 c).arrAt w (cfgs 0).N) (Proc.devRef .tc main_v0_2)
      = (dats m 0 c).arrAt 4 cfg0.N := Pipeline.withArrays_arr spec0 launch0.win.arr_inj c _ _ 4
  unfold Pipeline.afterTail₀
  show StableHlo.after hostOps1 _ (Proc.devRef .tc main_v4) = _
  simp only [after_cons, after_nil]
  rw [nary3_result]
  repeat (first
    | rw [unary_result]
    | (rw [unary_result_ne]; rotate_left; decide))
  rw [e2, e3, e4]
  rfl

/-- THE RUN, READ: every weakly fair execution of the idealized kernel's @main terminates with the result at the stack of the
    cosine, L1 and L2 arrays of the argument arrays, and the arguments unchanged. -/
theorem run_value : θ_run defs (onTc (τ := τ) (main (F := Ideal))) ⟨m, fun _ => 0, ρ⟩ (fun r => ∀ c : Dev nD,
      r.2.mem ((c.tc : Thread nD τ).loc main_v4)
        = stack (pairwise cosRows (m ((c.tc : Thread nD τ).loc main_arg0)) (m ((c.tc : Thread nD τ).loc main_arg1)))
            (pairwise l1Rows (m ((c.tc : Thread nD τ).loc main_arg0)) (m ((c.tc : Thread nD τ).loc main_arg1)))
            (pairwise l2Rows (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v4 (Pipeline.mem_restRefs_of main_v4 (by decide) (by decide))).trans
        ((tail_eq m c).trans (by rw [final_cos, final_l1, final_l2]; rfl)),
     ((h c).1 0).trans (((dats m 0 c).arrAt_in 0 rfl _).trans (A_eq m c 0)),
     ((h c).1 1).trans (((dats m 0 c).arrAt_in 1 rfl _).trans (A_eq m c 1))⟩) (run_main m ρ)

end Cert.KernelIdeal.Tiles

end
-- ==== Proof.ReferenceArrays.lean ====
/-
  The reference's three results before they are stacked, at the ideal instance, each as the array of a distance between
  rows: entry (b, r, q) of the cosine array is the product of row (b, r) of x divided by its norm with row q of y divided
  by its norm; of the L1 array the sum of absolute differences of the two rows; of the L2 array the square root of the sum
  of their squared differences. Each is read off the program one operation at a time.
-/
import proofs.«166156_j11759620456454_2_alg».proof.Proof.Gen.ReferenceIdeal.Read
import proofs.«166156_j11759620456454_2_alg».proof.Proof.DistMath

noncomputable section

namespace Cert.ReferenceIdeal.RefValue

open Idealize.ShloMosaic Idealize.ShloMosaic.ValueIdx
open Cert.ReferenceIdeal Cert.ReferenceIdeal.Gen Cert.ReferenceIdeal.Read Cert.Dist
open scoped BigOperators

/-! ## The composed index maps, as coordinates -/

theorem e_lidx (i : S4x512x512.Idx) (k : Fin 128) :
    lidx_main_v6 i k = ix3 (⟨(i 0).val, (i 0).isLt⟩ : Fin 4) (⟨(i 1).val, (i 1).isLt⟩ : Fin 512) k :=
  funext fun a => Fin.ext (by match a with | ⟨0, _⟩ => rfl | ⟨1, _⟩ => rfl | ⟨2, _⟩ => rfl)

theorem e_ridx (i : S4x512x512.Idx) (k : Fin 128) : ridx_main_v6 i k = ix2 (⟨(i 2).val, (i 2).isLt⟩ : Fin 512) k :=
  funext fun a => Fin.ext (by match a with | ⟨0, _⟩ => rfl | ⟨1, _⟩ => rfl)

theorem e_xrow (j : S4x512x128.Idx) (d : Fin 128) :
    idx_main_call0_v1 (idx_main_call0_v2 (idx_main_v1 j)) d = ix3 (⟨(j 0).val, (j 0).isLt⟩ : Fin 4) (⟨(j 1).val, (j 1).isLt⟩ : Fin 512) d :=
  funext fun a => Fin.ext (by match a with | ⟨0, _⟩ => rfl | ⟨1, _⟩ => rfl | ⟨2, _⟩ => rfl)

theorem e_yrow (j : S512x128.Idx) (d : Fin 128) :
    idx_main_call1_v1 (idx_main_call1_v2 (idx_main_v4 j)) d = ix2 (⟨(j 0).val, (j 0).isLt⟩ : Fin 512) d :=
  funext fun a => Fin.ext (by match a with | ⟨0, _⟩ => rfl | ⟨1, _⟩ => rfl)

theorem e_xd13 (i : S4x512x512.Idx) (k : Fin 128) :
    idx_main_v7 (idx_main_v9 (idx_main_v13 i k)) = ix3 (⟨(i 0).val, (i 0).isLt⟩ : Fin 4) (⟨(i 1).val, (i 1).isLt⟩ : Fin 512) k :=
  funext fun a => Fin.ext (by match a with | ⟨0, _⟩ => rfl | ⟨1, _⟩ => rfl | ⟨2, _⟩ => rfl)

theorem e_yd13 (i : S4x512x512.Idx) (k : Fin 128) :
    idx_main_v8 (idx_main_v10 (idx_main_v13 i k)) = ix2 (⟨(i 2).val, (i 2).isLt⟩ : Fin 512) k :=
  funext fun a => Fin.ext (by match a with | ⟨0, _⟩ => rfl | ⟨1, _⟩ => rfl)

theorem e_xd15 (i : S4x512x512.Idx) (k : Fin 128) :
    idx_main_v7 (idx_main_v9 (idx_main_v15 i k)) = ix3 (⟨(i 0).val, (i 0).isLt⟩ : Fin 4) (⟨(i 1).val, (i 1).isLt⟩ : Fin 512) k :=
  funext fun a => Fin.ext (by match a with | ⟨0, _⟩ => rfl | ⟨1, _⟩ => rfl | ⟨2, _⟩ => rfl)

theorem e_yd15 (i : S4x512x512.Idx) (k : Fin 128) :
    idx_main_v8 (idx_main_v10 (idx_main_v15 i k)) = ix2 (⟨(i 2).val, (i 2).isLt⟩ : Fin 512) k :=
  funext fun a => Fin.ext (by match a with | ⟨0, _⟩ => rfl | ⟨1, _⟩ => rfl)

/-! ## Entries -/

/-- x divided by its row norm, at an index. -/
theorem xn_at (x0 : (⟨S4x512x128, .f32⟩ : BufTy).Contents (Elt Ideal)) (j : S4x512x128.Idx) :
    val_main_v2 (F := Ideal) x0 j = Ideal.div (x0 j) (Ideal.sqrt (Ideal.ofBits .f32 0x00000000#32
      + ∑ d : Fin 128, x0 (ix3 (⟨(j 0).val, (j 0).isLt⟩ : Fin 4) (⟨(j 1).val, (j 1).isLt⟩ : Fin 512) d)
          * x0 (ix3 (⟨(j 0).val, (j 0).isLt⟩ : Fin 4) (⟨(j 1).val, (j 1).isLt⟩ : Fin 512) d))) := by
  rw [val_main_v2_apply, val_main_v1_apply, val_main_v0_apply, val_main_call0_v2_apply, val_main_call0_v1_apply]
  simp only [val_main_call0_v0_apply, val_main_call0_cst_apply, e_xrow, Ideal.hostDivf_def, Ideal.hostUnary_sqrt_def,
    Ideal.mulf_def, Ideal.ofBits_def]

/-- y divided by its row norm, at an index. -/
theorem yn_at (x1 : (⟨S512x128, .f32⟩ : BufTy).Contents (Elt Ideal)) (j : S512x128.Idx) :
    val_main_v5 (F := Ideal) x1 j = Ideal.div (x1 j) (Ideal.sqrt (Ideal.ofBits .f32 0x00000000#32
      + ∑ d : Fin 128, x1 (ix2 (⟨(j 0).val, (j 0).isLt⟩ : Fin 512) d) * x1 (ix2 (⟨(j 0).val, (j 0).isLt⟩ : Fin 512) d))) := by
  rw [val_main_v5_apply, val_main_v4_apply, val_main_v3_apply, val_main_call1_v2_apply, val_main_call1_v1_apply]
  simp only [val_main_call1_v0_apply, val_main_call1_cst_apply, e_yrow, Ideal.hostDivf_def, Ideal.hostUnary_sqrt_def,
    Ideal.mulf_def, Ideal.ofBits_def]

/-- The broadcast difference at (b, r, q, k), under either reduction's index. -/
theorem diff13_at (x0 : (⟨S4x512x128, .f32⟩ : BufTy).Contents (Elt Ideal)) (x1 : (⟨S512x128, .f32⟩ : BufTy).Contents (Elt Ideal))
    (i : S4x512x512.Idx) (k : Fin 128) :
    val_main_v11 (F := Ideal) x0 x1 (idx_main_v13 i k)
      = x0 (ix3 (⟨(i 0).val, (i 0).isLt⟩ : Fin 4) (⟨(i 1).val, (i 1).isLt⟩ : Fin 512) k) - x1 (ix2 (⟨(i 2).val, (i 2).isLt⟩ : Fin 512) k) := by
  rw [val_main_v11_apply, val_main_v9_apply, val_main_v7_apply, val_main_v10_apply, val_main_v8_apply, e_xd13, e_yd13]
  rfl

theorem diff15_at (x0 : (⟨S4x512x128, .f32⟩ : BufTy).Contents (Elt Ideal)) (x1 : (⟨S512x128, .f32⟩ : BufTy).Contents (Elt Ideal))
    (i : S4x512x512.Idx) (k : Fin 128) :
    val_main_v11 (F := Ideal) x0 x1 (idx_main_v15 i k)
      = x0 (ix3 (⟨(i 0).val, (i 0).isLt⟩ : Fin 4) (⟨(i 1).val, (i 1).isLt⟩ : Fin 512) k) - x1 (ix2 (⟨(i 2).val, (i 2).isLt⟩ : Fin 512) k) := by
  rw [val_main_v11_apply, val_main_v9_apply, val_main_v7_apply, val_main_v10_apply, val_main_v8_apply, e_xd15, e_yd15]
  rfl

/-! ## The three arrays -/

/-- The reference's cosine array. -/
theorem ref_cos (x0 : (⟨S4x512x128, .f32⟩ : BufTy).Contents (Elt Ideal)) (x1 : (⟨S512x128, .f32⟩ : BufTy).Contents (Elt Ideal)) :
    val_main_v6 (F := Ideal) x0 x1 = pairwise cosRowsRef x0 x1 := by
  funext i
  rw [val_main_v6_apply]
  simp only [xn_at, yn_at, e_lidx, e_ridx]
  rfl

/-- The reference's L1 array. -/
theorem ref_l1 (x0 : (⟨S4x512x128, .f32⟩ : BufTy).Contents (Elt Ideal)) (x1 : (⟨S512x128, .f32⟩ : BufTy).Contents (Elt Ideal)) :
    val_main_v13 (F := Ideal) x0 x1 = pairwise l1RowsRef x0 x1 := by
  funext i
  rw [val_main_v13_apply]
  simp only [val_main_v12_apply, diff13_at, val_main_cst_apply, Ideal.hostAbsf_def, Ideal.ofBits_def]
  rfl

/-- The reference's L2 array. -/
theorem ref_l2 (x0 : (⟨S4x512x128, .f32⟩ : BufTy).Contents (Elt Ideal)) (x1 : (⟨S512x128, .f32⟩ : BufTy).Contents (Elt Ideal)) :
    val_main_v16 (F := Ideal) x0 x1 = pairwise l2RowsRef x0 x1 := by
  funext i
  rw [val_main_v16_apply, val_main_v15_apply]
  simp only [val_main_v14_apply, diff15_at, val_main_cst_0_apply, Ideal.hostUnary_sqrt_def, Ideal.mulf_def, Ideal.ofBits_def]
  rfl

end Cert.ReferenceIdeal.RefValue

end
-- ==== Proof.DistPre.lean ====
/-
  What the precondition says, entry by entry, at the ideal instance: every entry of x and of y is a real number (its
  absolute value lies below +∞), and every row of x and every row of y has a positive sum of squares — so no row is
  zero, which is where the reference's division by the row's norm is defined.
-/
import proofs.«166156_j11759620456454_2_alg».proof.Pre_finite_inputs
import proofs.«166156_j11759620456454_2_alg».proof.Proof.Gen.Pre_finite_inputs
import proofs.«166156_j11759620456454_2_alg».proof.Proof.DistMath
import Idealize.ShloMosaic.Lib.ReduceAll
import Idealize.ShloMosaic.Lib.ValueIdx
import Idealize.ShloMosaic.Lib.Affine

noncomputable section

namespace Cert.Dist

open Idealize.ShloMosaic Idealize.ShloMosaic.ValueIdx Cert.Pre_finite_inputs Cert.Pre_finite_inputs.Facts
open scoped BigOperators

/-- A rank-0 array has one index. -/
instance scalar_idx_subsingleton : Subsingleton Cert.Pre_finite_inputs.S_.Idx := ⟨fun a b => funext fun d => d.elim0⟩

/-- The host's sum over the last axis of a 4 × 512 × 128 array, from the zero word, at (b, r). -/
theorem rowsum3 [Cert.Pre_finite_inputs.Facts] (z : FVec Ideal S4x512x128 .f32) (j : S4x512.Idx) :
    Host.reduceAdd (F := Ideal) z (constant S_ .f32 0x00000000#32) reducesTo_S4x512x128_S4x512_d2 h_S_ j
      = ∑ d : Fin 128, z (ix3 (⟨(j 0).val, (j 0).isLt⟩ : Fin 4) (⟨(j 1).val, (j 1).isLt⟩ : Fin 512) d) := by
  simp only [Host.reduceAdd, Ideal.hostReduceAdd_def]
  rw [Ideal.hostReduceAdd_single reducesTo_S4x512x128_S4x512_d2 (by decide)]
  show Ideal.ofBits .f32 0x00000000#32 + _ = _
  rw [Ideal.ofBits_zero_f32, zero_add]
  refine Finset.sum_congr rfl fun k _ => ?_
  exact congrArg z (funext fun a => Fin.ext (by match a with | ⟨0, _⟩ => rfl | ⟨1, _⟩ => rfl | ⟨2, _⟩ => rfl))

/-- The host's sum over the last axis of a 512 × 128 array, from the zero word, at q. -/
theorem rowsum2 [Cert.Pre_finite_inputs.Facts] (z : FVec Ideal S512x128 .f32) (j : S512.Idx) :
    Host.reduceAdd (F := Ideal) z (constant S_ .f32 0x00000000#32) reducesTo_S512x128_S512_d1 h_S_ j
      = ∑ d : Fin 128, z (ix2 (⟨(j 0).val, (j 0).isLt⟩ : Fin 512) d) := by
  simp only [Host.reduceAdd, Ideal.hostReduceAdd_def]
  rw [Ideal.hostReduceAdd_single reducesTo_S512x128_S512_d1 (by decide)]
  show Ideal.ofBits .f32 0x00000000#32 + _ = _
  rw [Ideal.ofBits_zero_f32, zero_add]
  refine Finset.sum_congr rfl fun k _ => ?_
  exact congrArg z (funext fun a => Fin.ext (by match a with | ⟨0, _⟩ => rfl | ⟨1, _⟩ => rfl))

/-- The precondition, decoded. -/
theorem pre_facts [Cert.Pre_finite_inputs.Facts] (x : FVec Ideal S4x512x128 .f32) (y : FVec Ideal S512x128 .f32)
    (h : fn (F := Ideal) x y = fun _ => 1#1) :
    (∀ i, ∃ r : ℝ, x i = (r : EReal)) ∧ (∀ i, ∃ r : ℝ, y i = (r : EReal))
    ∧ (∀ (b : Fin 4) (r : Fin 512), (0 : EReal) < ∑ d : Fin 128, x (ix3 b r d) * x (ix3 b r d))
    ∧ (∀ q : Fin 512, (0 : EReal) < ∑ d : Fin 128, y (ix2 q d) * y (ix2 q d)) := by
  have h0 := congrFun h ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun b r => ?_, fun q => ?_⟩
  · have e := Host.reduce_andi_all _ _ _ _ _ h1 i
    have e' : Ideal.cmp .olt (max (x i) (-(x i))) (Ideal.ofBits .f32 0x7F800000#32) = 1#1 := e
    rw [cmp_olt_iff, inf_eq] at e'
    exact real_of_abs_lt_top _ e'
  · have e := Host.reduce_andi_all _ _ _ _ _ h2 i
    have e' : Ideal.cmp .olt (max (y i) (-(y i))) (Ideal.ofBits .f32 0x7F800000#32) = 1#1 := e
    rw [cmp_olt_iff, inf_eq] at e'
    exact real_of_abs_lt_top _ e'
  · have e := Host.reduce_andi_all _ _ _ _ _ h3 (ix2 b r)
    have e' : Ideal.cmp .ogt (Host.reduceAdd (F := Ideal) (mulf x x) (constant S_ .f32 0x00000000#32) reducesTo_S4x512x128_S4x512_d2 h_S_ (ix2 b r))
        (Ideal.ofBits .f32 0x00000000#32) = 1#1 := e
    rw [cmp_ogt_iff, Ideal.ofBits_zero_f32, rowsum3] at e'
    exact e'
  · have e := Host.reduce_andi_all _ _ _ _ _ h4 (ix1 q)
    have e' : Ideal.cmp .ogt (Host.reduceAdd (F := Ideal) (mulf y y) (constant S_ .f32 0x00000000#32) reducesTo_S512x128_S512_d1 h_S_ (ix1 q))
        (Ideal.ofBits .f32 0x00000000#32) = 1#1 := e
    rw [cmp_ogt_iff, Ideal.ofBits_zero_f32, rowsum2] at e'
    exact e'

end Cert.Dist

end
-- ==== Proof.DistBridge.lean ====
/-
  Under the precondition the kernel's three arrays of distances are the reference's: row by row, with every entry a real
  and every row's sum of squares positive, the cosine scaled by reciprocal square roots is the cosine divided by norms, the
  L1 sums agree as they stand, and the clamped Gram expression is the sum of squared differences.
-/
import proofs.«166156_j11759620456454_2_alg».proof.Proof.DistPre

noncomputable section

namespace Cert.Dist

open Idealize.ShloMosaic Idealize.ShloMosaic.ValueIdx Cert.Pre_finite_inputs
open scoped BigOperators

theorem pairwise_eq_of_pre [Cert.Pre_finite_inputs.Facts] (x : FVec Ideal S4x512x128 .f32) (y : FVec Ideal S512x128 .f32)
    (h : fn (F := Ideal) x y = fun _ => 1#1) :
    pairwise cosRows x y = pairwise cosRowsRef x y ∧ pairwise l1Rows x y = pairwise l1RowsRef x y
      ∧ pairwise l2Rows x y = pairwise l2RowsRef x y := by
  obtain ⟨hx, hy, hxs, hys⟩ := pre_facts x y h
  choose xr hxr using hx
  choose yr hyr using hy
  have ex : ∀ (b : Fin 4) (r : Fin 512), (fun d : Fin 128 => x (ix3 b r d)) = fun d => ((xr (ix3 b r d) : ℝ) : EReal) :=
    fun b r => funext fun d => hxr _
  have ey : ∀ q : Fin 512, (fun d : Fin 128 => y (ix2 q d)) = fun d => ((yr (ix2 q d) : ℝ) : EReal) :=
    fun q => funext fun d => hyr _
  refine ⟨funext fun i => ?_, funext fun i => ?_, funext fun i => ?_⟩
  · unfold pairwise
    rw [ex, ey]
    refine cosRows_eq _ _ ?_ ?_
    · have := hxs ⟨(i 0).val, (i 0).isLt⟩ ⟨(i 1).val, (i 1).isLt⟩
      simpa only [hxr] using this
    · have := hys ⟨(i 2).val, (i 2).isLt⟩
      simpa only [hyr] using this
  · unfold pairwise
    exact l1Rows_eq _ _
  · unfold pairwise
    rw [ex, ey]
    exact l2Rows_eq _ _

end Cert.Dist

end
-- ==== Proof.lean ====
/-
  Pairwise distances: for x of shape [4, 512, 128] and y of shape [512, 128] the result [4, 512, 512, 3] holds, at
  (b, r, q, ·), the cosine similarity, the L1 distance and the L2 distance between row (b, r) of x and row q of y.

  The kernel tiles the result in 256 × 256 blocks. It scales each row by the reciprocal square root of its sum of squares
  and multiplies the scaled blocks for the cosine; sums |x − y| over the feature axis in four bands of 64 columns for L1;
  and takes √ max(Σx² + Σy² − 2·Σxy, 0) for L2. The reference divides each row by its norm, and sums |x − y| and (x − y)²
  over a broadcast difference. Over the extended reals the two agree when every input is a real number and no row is zero:

  * a·rsqrt(s) = a / √s for a positive real s — at s = 0 they differ (0·(+∞) = 0 against 0/0), and there the reference
    itself is undefined, which is why the precondition asks every row's sum of squares to be positive;
  * Σx² + Σy² − 2·Σxy = Σ(x − y)² ≥ 0 on real rows (distributivity, hence finiteness), so the clamp at zero is idle;
  * the L1 sums are the same sums.

  The three frames: each kernel program runs the sixteen grid points to the end, leaving the two argument arrays as they
  were (they are only read); the reference is a straight line of host operations. The idealization rewrote nothing, so
  there is nothing to preserve.
-/
import proofs.«166156_j11759620456454_2_alg».proof.Defs
import proofs.«166156_j11759620456454_2_alg».proof.Proof.Gen.Kernel
import proofs.«166156_j11759620456454_2_alg».proof.Proof.Gen.Kernel.Skeleton
import proofs.«166156_j11759620456454_2_alg».proof.Proof.Gen.Kernel.Launch
import proofs.«166156_j11759620456454_2_alg».proof.Proof.Gen.Kernel.Points
import proofs.«166156_j11759620456454_2_alg».proof.Proof.Gen.KernelIdeal
import proofs.«166156_j11759620456454_2_alg».proof.Proof.Gen.KernelIdeal.Skeleton
import proofs.«166156_j11759620456454_2_alg».proof.Proof.Gen.KernelIdeal.Launch
import proofs.«166156_j11759620456454_2_alg».proof.Proof.Gen.KernelIdeal.Points
import proofs.«166156_j11759620456454_2_alg».proof.Proof.Gen.ReferenceIdeal
import proofs.«166156_j11759620456454_2_alg».proof.Proof.Gen.ReferenceIdeal.Run
import proofs.«166156_j11759620456454_2_alg».proof.Proof.Gen.ReferenceIdeal.Read
import proofs.«166156_j11759620456454_2_alg».proof.Proof.Gen.Pre_finite_inputs
import proofs.«166156_j11759620456454_2_alg».proof.Proof.KernelRun
import proofs.«166156_j11759620456454_2_alg».proof.Proof.KernelIdealValue
import proofs.«166156_j11759620456454_2_alg».proof.Proof.ReferenceArrays
import proofs.«166156_j11759620456454_2_alg».proof.Proof.DistBridge
import Idealize.ShloMosaic.Adequacy
import Idealize.ShloMosaic.Init

noncomputable section

namespace Cert.Proof

open Idealize.ShloMosaic Idealize.SL.Sem Cert.Kernel

/-- The kernel as printed runs to the end and leaves its arguments unchanged. -/
theorem frame_kernel : Cert.frame_Kernel := fun m ρ _ => Cert.Kernel.Tiles.frame m ρ

/-- So does its idealization. -/
theorem frame_kernelIdeal : Cert.frame_KernelIdeal := fun m ρ _ => Cert.KernelIdeal.Tiles.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on x and y, with every entry real and no zero row, the idealized kernel and the idealized
    reference end with the same stack of cosine, L1 and L2 arrays. -/
theorem algebraic : Cert.algebraic_KernelIdeal_ReferenceIdeal := by
  intro m ρ m' ρ' hpre hagree
  refine ⟨_, Cert.KernelIdeal.Tiles.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  obtain ⟨e1, e2, e3⟩ := Cert.Dist.pairwise_eq_of_pre _ _ (hpre c)
  rw [e1, e2, e3, ← Cert.ReferenceIdeal.RefValue.ref_cos, ← Cert.ReferenceIdeal.RefValue.ref_l1,
    ← Cert.ReferenceIdeal.RefValue.ref_l2]
  exact Cert.ReferenceIdeal.Read.val_main_v20_eq _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
